-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S512x512 : Shape := ⟨2, ![512, 512]⟩
abbrev S1x512 : Shape := ⟨2, ![1, 512]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_

variable [Facts]

def fn_part2 {F : FTy → Type} [FloatOps F] (main_arg7 : FVec F S512x512 .f32) (main_arg8 : FVec F S1x512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S1x512 .f32 := Host.absf main_arg8
  let main_cst_14 : FVec F S_ .f32 := constant S_ .f32 0x7F800000#32
  let main_v40 : FVec F S1x512 .f32 := broadcastInDim S1x512 ![] bcast_S_S1x512 main_cst_14
  let main_v41 : IVec S1x512 1 := cmpf .olt main_v39 main_v40
  let main_c_15 : IVec S_ 1 := constantI S_ 1 1#1
  let main_v42 : IVec S_ 1 := (fun x v => Host.reduce IntOp.andi x v reducesTo_S1x512_S_d0_1 h_S_) main_v41 main_c_15
  let main_v43 : IVec S_ 1 := andi main_v38 main_v42
  main_v43

def fn_part1 {F : FTy → Type} [FloatOps F] (main_arg4 : FVec F S512x512 .f32) (main_arg5 : FVec F S1x512 .f32) (main_arg6 : FVec F S1x512 .f32) (main_arg7 : FVec F S512x512 .f32) (main_arg8 : FVec F S1x512 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_arg8 main_v33

def fn {F : FTy → Type} [FloatOps F] (main_arg0 : FVec F S32x512x32x32 .f32) (main_arg1 : FVec F S512x512 .f32) (main_arg2 : FVec F S1x512 .f32) (main_arg3 : FVec F S1x512 .f32) (main_arg4 : FVec F S512x512 .f32) (main_arg5 : FVec F S1x512 .f32) (main_arg6 : FVec F S1x512 .f32) (main_arg7 : FVec F S512x512 .f32) (main_arg8 : FVec F S1x512 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg6 main_arg7 main_arg8 main_v13 main_v16
-- ==== Kernel.lean ====
abbrev S32x512x32x32 : Shape := ⟨4, ![32, 512, 32, 32]⟩
abbrev S512x512 : Shape := ⟨2, ![512, 512]⟩
abbrev S1x512 : Shape := ⟨2, ![1, 512]⟩
abbrev S32x512x1024 : Shape := ⟨3, ![32, 512, 1024]⟩
abbrev S4x512x1024 : Shape := ⟨3, ![4, 512, 1024]⟩
abbrev S4x512 : Shape := ⟨2, ![4, 512]⟩
abbrev S4x512x1 : Shape := ⟨3, ![4, 512, 1]⟩

abbrev nBuf : Space → Nat
  | .hbm => 15
  | .vmem => 12
  | .smem => 0
  | _ => 0

abbrev bufTy : (tb : Table) → Fin (tcTables nBuf tb) → BufTy
  | .hbm, ⟨0, _⟩ => ⟨S32x512x32x32, .f32⟩
  | .hbm, ⟨1, _⟩ => ⟨S512x512, .f32⟩
  | .hbm, ⟨2, _⟩ => ⟨S1x512, .f32⟩
  | .hbm, ⟨3, _⟩ => ⟨S1x512, .f32⟩
  | .hbm, ⟨4, _⟩ => ⟨S512x512, .f32⟩
  | .hbm, ⟨5, _⟩ => ⟨S1x512, .f32⟩
  | .hbm, ⟨6, _⟩ => ⟨S1x512, .f32⟩
  | .hbm, ⟨7, _⟩ => ⟨S512x512, .f32⟩
  | .hbm, ⟨8, _⟩ => ⟨S1x512, .f32⟩
  | .hbm, ⟨9, _⟩ => ⟨S32x512x1024, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S32x512x1024, .f32⟩
  | .hbm, ⟨14, _⟩ => ⟨S32x512x32x32, .f32⟩
  | .local _ .vmem, ⟨0, _⟩ => ⟨S4x512x1024, .f32⟩
  | .local _ .vmem, ⟨1, _⟩ => ⟨S4x512x1024, .f32⟩
  | .local _ .vmem, ⟨2, _⟩ => ⟨S512x512, .f32⟩
  | .local _ .vmem, ⟨3, _⟩ => ⟨S1x512, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S4x512x1024, .f32⟩
  | .local _ .vmem, ⟨11, _⟩ => ⟨S4x512x1024, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S32x512x32x32_S32x512x1024 : S32x512x32x32.ShapeCasts S32x512x1024
  transposes_S512x512_S512x512_1_0 : S512x512.Transposes [1, 0] S512x512
  shapeCasts_S32x512x1024_S32x512x32x32 : S32x512x1024.ShapeCasts S32x512x32x32
  inb_S4x512x1024_S4x512x1024_0_0_0 : ∀ a, (![0, 0, 0] : Fin 3 → Nat) a + S4x512x1024.size a ≤ S4x512x1024.size a
  h_S4x512x1024 : 0 < S4x512x1024.numel
  shapeCasts_S4x512x1024_S4x512x1024 : S4x512x1024.ShapeCasts S4x512x1024
  reduces_S4x512x1024_S4x512 : S4x512x1024.Reduces [2] S4x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  broadcasts_S1x512_S4x512 : S1x512.Broadcasts S4x512
  shapeCasts_S4x512_S4x512x1 : S4x512.ShapeCasts S4x512x1
  broadcasts_S4x512x1_S4x512x1024 : S4x512x1.Broadcasts S4x512x1024
  dot_S4x512_S512x512_S4x512_1_0_0_1_n_n_wf : DotDims.WF S4x512 S512x512 S4x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S32x512x1024.size a
  hwx0_0 : ∀ i : grid0.Coords, EltTy.bits .f32 = 32 ∨ (Rect.block (s := S32x512x1024) S4x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x512x1024.size a ≤ S32x512x1024.size a
  hwx0_9 : ∀ i : grid0.Coords, EltTy.bits .f32 = 32 ∨ (Rect.block (s := S32x512x1024) S4x512x1024.size (cc0_transform_9 i) (hinb0_9 i)).WholeWords (EltTy.packing .f32)

variable [Facts₀]

def dot_S4x512_S512x512_S4x512_1_0_0_1_n_n : DotDims S4x512 S512x512 S4x512 where
  lhsContracting := [1]
  rhsContracting := [0]
  lhsNonContracting := [0]
  rhsNonContracting := [1]
  lhsBatch := []
  rhsBatch := []
  wf := dot_S4x512_S512x512_S4x512_1_0_0_1_n_n_wf

abbrev win0_0 : Pipeline.Window sig grid0 :=
  Pipeline.Window.ofSpec (Memref.whole main_call0_v0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v4) S4x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x512x32x32 : Shape := ⟨4, ![32, 512, 32, 32]⟩
abbrev S512x512 : Shape := ⟨2, ![512, 512]⟩
abbrev S1x512 : Shape := ⟨2, ![1, 512]⟩
abbrev S32x512x1024 : Shape := ⟨3, ![32, 512, 1024]⟩
abbrev S32x512 : Shape := ⟨2, ![32, 512]⟩
abbrev S32x512x128 : Shape := ⟨3, ![32, 512, 128]⟩
abbrev S32x512x1x1 : Shape := ⟨4, ![32, 512, 1, 1]⟩
abbrev S32x512x1 : Shape := ⟨3, ![32, 512, 1]⟩

abbrev nBuf : Space → Nat
  | .hbm => 19
  | .vmem => 17
  | .smem => 0
  | _ => 0

abbrev bufTy : (tb : Table) → Fin (tcTables nBuf tb) → BufTy
  | .hbm, ⟨0, _⟩ => ⟨S32x512x32x32, .f32⟩
  | .hbm, ⟨1, _⟩ => ⟨S512x512, .f32⟩
  | .hbm, ⟨2, _⟩ => ⟨S1x512, .f32⟩
  | .hbm, ⟨3, _⟩ => ⟨S1x512, .f32⟩
  | .hbm, ⟨4, _⟩ => ⟨S512x512, .f32⟩
  | .hbm, ⟨5, _⟩ => ⟨S1x512, .f32⟩
  | .hbm, ⟨6, _⟩ => ⟨S1x512, .f32⟩
  | .hbm, ⟨7, _⟩ => ⟨S512x512, .f32⟩
  | .hbm, ⟨8, _⟩ => ⟨S1x512, .f32⟩
  | .hbm, ⟨9, _⟩ => ⟨S32x512x1024, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S32x512, .f32⟩
  | .hbm, ⟨14, _⟩ => ⟨S32x512x1x1, .f32⟩
  | .hbm, ⟨15, _⟩ => ⟨S32x512x1024, .f32⟩
  | .hbm, ⟨16, _⟩ => ⟨S32x512, .f32⟩
  | .hbm, ⟨17, _⟩ => ⟨S32x512x1024, .f32⟩
  | .hbm, ⟨18, _⟩ => ⟨S32x512x32x32, .f32⟩
  | .local _ .vmem, ⟨0, _⟩ => ⟨S32x512x128, .f32⟩
  | .local _ .vmem, ⟨1, _⟩ => ⟨S32x512x128, .f32⟩
  | .local _ .vmem, ⟨2, _⟩ => ⟨S512x512, .f32⟩
  | .local _ .vmem, ⟨3, _⟩ => ⟨S1x512, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S32x512, .f32⟩
  | .local _ .vmem, ⟨11, _⟩ => ⟨S32x512, .f32⟩
  | .local _ .vmem, ⟨12, _⟩ => ⟨S32x512x128, .f32⟩
  | .local _ .vmem, ⟨13, _⟩ => ⟨S32x512x128, .f32⟩
  | .local _ .vmem, ⟨14, _⟩ => ⟨S32x512, .f32⟩
  | .local _ .vmem, ⟨15, _⟩ => ⟨S32x512x128, .f32⟩
  | .local _ .vmem, ⟨16, _⟩ => ⟨S32x512x128, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev grid1 : Pipeline.Grid := ⟨2, ![1, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S32x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S32x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S32x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S32x512x32x32_S32x512x1024 : S32x512x32x32.ShapeCasts S32x512x1024
  transposes_S512x512_S512x512_1_0 : S512x512.Transposes [1, 0] S512x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x512x128_S32x512x128_0_0_0 : ∀ a, (![0, 0, 0] : Fin 3 → Nat) a + S32x512x128.size a ≤ S32x512x128.size a
  h_S32x512x128 : 0 < S32x512x128.numel
  shapeCasts_S32x512x128_S32x512x128 : S32x512x128.ShapeCasts S32x512x128
  reduces_S32x512x128_S32x512 : S32x512x128.Reduces [2] S32x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  broadcasts_S1x512_S32x512 : S1x512.Broadcasts S32x512
  shapeCasts_S32x512_S32x512x1x1 : S32x512.ShapeCasts S32x512x1x1
  shapeCasts_S32x512x1x1_S32x512 : S32x512x1x1.ShapeCasts S32x512
  shapeCasts_S32x512_S32x512x1 : S32x512.ShapeCasts S32x512x1
  broadcasts_S32x512x1_S32x512x128 : S32x512x1.Broadcasts S32x512x128
  shapeCasts_S32x512x1024_S32x512x32x32 : S32x512x1024.ShapeCasts S32x512x32x32
  dot_S32x512_S512x512_S32x512_1_0_0_1_n_n_wf : DotDims.WF S32x512 S512x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x128.size a ≤ S32x512x1024.size a
  hwx0_0 : ∀ i : grid0.Coords, EltTy.bits .f32 = 32 ∨ (Rect.block (s := S32x512x1024) S32x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 1
  hreads0_9 : ∀ i i' : grid0.Coords, (∀ a, reads0_9 a = true → i a = i' a) → cc0_transform_9 i = cc0_transform_9 i'
  hinb0_9 : ∀ (i : grid0.Coords) a, (cc0_transform_9 i a + 1) * S32x512.size a ≤ S32x512.size a
  hwx0_9 : ∀ i : grid0.Coords, EltTy.bits .f32 = 32 ∨ (Rect.block (s := S32x512) S32x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x512x128.size a ≤ S32x512x1024.size a
  hwx1_0 : ∀ i : grid1.Coords, EltTy.bits .f32 = 32 ∨ (Rect.block (s := S32x512x1024) S32x512x128.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S32x512.size a ≤ S32x512.size a
  hwx1_1 : ∀ i : grid1.Coords, EltTy.bits .f32 = 32 ∨ (Rect.block (s := S32x512) S32x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x512x128.size a ≤ S32x512x1024.size a
  hwx1_2 : ∀ i : grid1.Coords, EltTy.bits .f32 = 32 ∨ (Rect.block (s := S32x512x1024) S32x512x128.size (cc1_transform_2 i) (hinb1_2 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf

abbrev win0_0 : Pipeline.Window sig grid0 :=
  Pipeline.Window.ofSpec (Memref.whole main_v0) S32x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S32x512.size cc0_transform_9 reads0_9 true false 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v6) S32x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S32x512.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S32x512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.Spec.lean ====
/-
  The squeeze-and-excitation block both programs compute, as ONE function of the arrays the kernels see,
  index by index on the extended reals.

  For a batch item b and a channel c the gate is
      σ( L₃( φ₂( L₂( φ₁( L₁( g_b ) ) ) ) ) )(c),      g_b(k) = (∑_{l < 1024} x(b, k, l)) · 2⁻¹⁰,
  where L(y)(j) = ∑_k y(k) · Wᵗ(k, j) + bias(j) is a dense layer over the TRANSPOSED weight Wᵗ (the array the
  kernels are handed), φ(y)(j) = y(j) if y(j) ≥ 0 else α(j) · y(j) is the parametric rectifier and σ the logistic
  function. The result is x(b, c, l) · gate(b, c).

  The 1024 spatial positions are the last axis of the RESHAPED input [32, 512, 1024]; the reshape back to
  [32, 512, 32, 32] is applied to this function's result by both programs and is not opened here.
  The literals stay as their words: the same word stands on both sides and is never evaluated.
-/
import Idealize.ShloMosaic.PureOps.Ideal
import Idealize.ShloMosaic.Lib.ValueIdx

noncomputable section

namespace SE

open Idealize.ShloMosaic Idealize.ShloMosaic.ValueIdx

/-- The reshaped input and the result: [32, 512, 1024]. -/
abbrev Cube : Type := (⟨3, ![32, 512, 1024]⟩ : Shape).Idx → EReal
/-- A (transposed) weight: [512, 512]. -/
abbrev Mat : Type := (⟨2, ![512, 512]⟩ : Shape).Idx → EReal
/-- A bias or a rectifier slope: [1, 512]. -/
abbrev Row : Type := (⟨2, ![1, 512]⟩ : Shape).Idx → EReal

/-- The zero word and the word of 2⁻¹⁰ = 1/1024, at the ideal values. -/
def zeroW : EReal := Scalar.ofBits (F := Ideal) .f32 0x00000000#32
def invHW : EReal := Scalar.ofBits (F := Ideal) .f32 0x3A800000#32

/-- A dense layer over the transposed weight: ∑_k y(k) · Wᵗ(k, j) + bias(j). -/
def lin (y : Fin 512 → EReal) (Wt : Mat) (b : Row) (j : Fin 512) : EReal :=
  (∑ k : Fin 512, y k * Wt (ix2 k j)) + b (ix2 0 j)

/-- The parametric rectifier: y(j) where y(j) ≥ 0, α(j) · y(j) elsewhere. -/
def act (a : Row) (y : Fin 512 → EReal) (j : Fin 512) : EReal :=
  Scalar.select (FloatOps.cmpf (F := Ideal) (φ := .f32) .oge (y j) zeroW) (y j) (a (ix2 0 j) * y j)

/-- The gate of one batch item from its 512 spatial sums. -/
def gateOf (s : Fin 512 → EReal) (W1 : Mat) (b1 a1 : Row) (W2 : Mat) (b2 a2 : Row) (W3 : Mat) (b3 : Row) (j : Fin 512) : EReal :=
  FloatOps.logistic (F := Ideal) (φ := .f32)
    (lin (act a2 (lin (act a1 (lin (fun k => s k * invHW) W1 b1)) W2 b2)) W3 b3 j)

/-- The spatial sum of channel c of batch item b. -/
def rowSum (x : Cube) (b : Fin 32) (c : Fin 512) : EReal := ∑ l : Fin 1024, x (ix3 b c l)

/-- The gate of batch item b. -/
def gate (x : Cube) (W1 : Mat) (b1 a1 : Row) (W2 : Mat) (b2 a2 : Row) (W3 : Mat) (b3 : Row) (b : Fin 32) : Fin 512 → EReal :=
  gateOf (rowSum x b) W1 b1 a1 W2 b2 a2 W3 b3

/-- The block's result at (b, c, l): the input there times the gate of (b, c). -/
def out3 (x : Cube) (W1 : Mat) (b1 a1 : Row) (W2 : Mat) (b2 a2 : Row) (W3 : Mat) (b3 : Row) : Cube :=
  fun i => x i * gate x W1 b1 a1 W2 b2 a2 W3 b3 (i 0) (i 1)

theorem out3_apply (x : Cube) (W1 : Mat) (b1 a1 : Row) (W2 : Mat) (b2 a2 : Row) (W3 : Mat) (b3 : Row)
    (b : Fin 32) (c : Fin 512) (l : Fin 1024) :
    out3 x W1 b1 a1 W2 b2 a2 W3 b3 (ix3 b c l) = x (ix3 b c l) * gate x W1 b1 a1 W2 b2 a2 W3 b3 b c := rfl

end SE

end
-- ==== Proof.LibGateRows.lean ====
/-
  Rows through a three-layer gate, read index by index on the extended reals.

  A block of n rows of 512 numbers is sent through
      σ( L₃( φ₂( L₂( φ₁( L₁( s · 2⁻¹⁰ ) ) ) ) ) ),
  every step written on the whole n × 512 block: a rows-by-matrix product into the zero block plus a bias row
  repeated down the rows for L, a comparison with zero and a choice between y and α · y for φ, and the logistic
  function σ element by element. This file proves that such a block expression, read at row r and column j, is the
  gate SE.gateOf of the r-th row alone: the rows do not mix. The number of rows n is arbitrary.

  • IsRowsByMatrix d: the dimension numbers d contract the left operand's axis 1 with the right operand's axis 0,
    keep the left operand's axis 0 and the right operand's axis 1, and have no batch axes.
  • dense_apply: with such d, the product of an n × 512 block y and a 512 × 512 matrix W into the zero block is,
    at (r, j), the sum over k of y(r, k) · W(k, j).
  • layer, rectify, gateVec: one dense layer, one parametric rectifier, and the whole gate, as block expressions.
  • layer_row, rectify_row, gateVec_apply: each read at a row is SE.lin, SE.act, SE.gateOf of that row.
-/
import proofs.«131134_g2000205275311698_pallasbulk_34_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace SE.Rows

open Idealize.ShloMosaic Idealize.ShloMosaic.ValueIdx

/-- An n × 512 block, a 512 × 512 matrix, a 1 × 512 row: the three shapes of this file. -/
abbrev Blk (n : Nat) : Shape := ⟨2, ![n, 512]⟩
abbrev Sq : Shape := ⟨2, ![512, 512]⟩
abbrev Rw : Shape := ⟨2, ![1, 512]⟩

/-! ## The rows-by-matrix product -/

/-- The dimension numbers of "rows times matrix": contract the left operand's axis 1 with the right operand's axis 0,
    keep the left operand's axis 0 and the right operand's axis 1, no batch axes. -/
structure IsRowsByMatrix {n : Nat} (d : DotDims (Blk n) Sq (Blk n)) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

/-- Dimension numbers are determined by their six lists, so such a d is the plain M × K by K × N record. -/
theorem IsRowsByMatrix.eq_plain {n : Nat} {d : DotDims (Blk n) Sq (Blk n)} (h : IsRowsByMatrix d) :
    d = DotDims.plain n 512 512 := by
  obtain ⟨a, b, c, e, f, g, w⟩ := d
  obtain ⟨h1, h2, h3, h4, h5, h6⟩ := h
  simp only at h1 h2 h3 h4 h5 h6
  subst h1 h2 h3 h4 h5 h6
  rfl

/-- At output index (r, j) and contraction position k the left operand is read at (r, k) … -/
theorem plain_lhsIdx {n : Nat} (r : Fin n) (j k : Fin 512) :
    (DotDims.plain n 512 512).lhsIdx (ix2 r j) ((contrEquiv1 (DotDims.plain n 512 512) 512 rfl rfl).symm k) = ix2 r k := by
  funext a
  refine Fin.ext ?_
  match a with
  | ⟨0, _⟩ => rfl
  | ⟨1, _⟩ => rfl

/-- … and the right operand at (k, j). -/
theorem plain_rhsIdx {n : Nat} (r : Fin n) (j k : Fin 512) :
    (DotDims.plain n 512 512).rhsIdx (ix2 r j) ((contrEquiv1 (DotDims.plain n 512 512) 512 rfl rfl).symm k) = ix2 k j := by
  funext a
  refine Fin.ext ?_
  match a with
  | ⟨0, _⟩ => rfl
  | ⟨1, _⟩ => rfl

/-- The product of a block and a matrix into the zero block, at (r, j): ∑ₖ y(r, k) · W(k, j). -/
theorem dense_apply {n : Nat} (d : DotDims (Blk n) Sq (Blk n)) (hd : IsRowsByMatrix d)
    (y : FVec Ideal (Blk n) .f32) (W : FVec Ideal Sq .f32) (r : Fin n) (j : Fin 512) :
    matmul d none y W (constant (F := Ideal) (Blk n) .f32 0x00000000#32) (ix2 r j)
      = ∑ k : Fin 512, y (ix2 r k) * W (ix2 k j) := by
  obtain rfl := hd.eq_plain
  show FloatOps.matmul _ _ _ _ _ _ = _
  rw [Ideal.matmul_constant_zero_apply,
    ← Equiv.sum_comp (contrEquiv1 (DotDims.plain n 512 512) 512 rfl rfl).symm]
  refine Finset.sum_congr rfl fun k _ => ?_
  rw [plain_lhsIdx, plain_rhsIdx]

/-! ## The block expressions -/

/-- One dense layer on a block: the product with the matrix into the zero block, plus the bias row repeated down the rows. -/
def layer {n : Nat} (d : DotDims (Blk n) Sq (Blk n)) (hb : Rw.Broadcasts (Blk n)) (hc : Sq.ShapeCasts Sq)
    (y : FVec Ideal (Blk n) .f32) (W : FVec Ideal Sq .f32) (b : FVec Ideal Rw .f32) : FVec Ideal (Blk n) .f32 :=
  addf (matmul d none y (shapeCast Sq W hc) (constant (Blk n) .f32 0x00000000#32)) (broadcastTo (Blk n) b hb)

/-- The parametric rectifier on a block: y where y ≥ 0, the slope row times y elsewhere. -/
def rectify {n : Nat} (hb : Rw.Broadcasts (Blk n)) (a : FVec Ideal Rw .f32) (y : FVec Ideal (Blk n) .f32) :
    FVec Ideal (Blk n) .f32 :=
  select (cmpf .oge y (broadcast (Blk n) (Scalar.ofBits .f32 0x00000000#32))) y (mulf (broadcastTo (Blk n) a hb) y)

/-- The whole gate on a block of row sums s: scale by 2⁻¹⁰, layer, rectifier, layer, rectifier, layer, logistic. -/
def gateVec {n : Nat} (d : DotDims (Blk n) Sq (Blk n)) (hb : Rw.Broadcasts (Blk n)) (hc : Sq.ShapeCasts Sq)
    (s : FVec Ideal (Blk n) .f32) (W1 : FVec Ideal Sq .f32) (b1 a1 : FVec Ideal Rw .f32)
    (W2 : FVec Ideal Sq .f32) (b2 a2 : FVec Ideal Rw .f32) (W3 : FVec Ideal Sq .f32) (b3 : FVec Ideal Rw .f32) :
    FVec Ideal (Blk n) .f32 :=
  logistic
    (layer d hb hc
      (rectify hb a2
        (layer d hb hc
          (rectify hb a1
            (layer d hb hc (mulf s (broadcast (Blk n) (Scalar.ofBits .f32 0x3A800000#32))) W1 b1))
          W2 b2))
      W3 b3)

/-! ## Read at a row -/

/-- A dense layer at (r, j) is SE.lin of row r at j. -/
theorem layer_apply {n : Nat} (d : DotDims (Blk n) Sq (Blk n)) (hd : IsRowsByMatrix d) (hb : Rw.Broadcasts (Blk n))
    (hc : Sq.ShapeCasts Sq) (y : FVec Ideal (Blk n) .f32) (W : FVec Ideal Sq .f32) (b : FVec Ideal Rw .f32)
    (r : Fin n) (j : Fin 512) :
    layer d hb hc y W b (ix2 r j) = SE.lin (fun k => y (ix2 r k)) W b j := by
  unfold layer SE.lin
  rw [addf_apply, shapeCast_self, dense_apply d hd, broadcastTo_1b_ab_apply]

/-- Row r of a dense layer is SE.lin of row r. -/
theorem layer_row {n : Nat} (d : DotDims (Blk n) Sq (Blk n)) (hd : IsRowsByMatrix d) (hb : Rw.Broadcasts (Blk n))
    (hc : Sq.ShapeCasts Sq) (y : FVec Ideal (Blk n) .f32) (W : FVec Ideal Sq .f32) (b : FVec Ideal Rw .f32) (r : Fin n) :
    (fun j => layer d hb hc y W b (ix2 r j)) = SE.lin (fun k => y (ix2 r k)) W b :=
  funext fun j => layer_apply d hd hb hc y W b r j

/-- The rectifier at (r, j) is SE.act of row r at j. -/
theorem rectify_apply {n : Nat} (hb : Rw.Broadcasts (Blk n)) (a : FVec Ideal Rw .f32) (y : FVec Ideal (Blk n) .f32)
    (r : Fin n) (j : Fin 512) :
    rectify hb a y (ix2 r j) = SE.act a (fun k => y (ix2 r k)) j := by
  unfold rectify SE.act SE.zeroW
  rw [select_apply, cmpf_apply, broadcast_apply, mulf_apply, broadcastTo_1b_ab_apply]

/-- Row r of the rectifier is SE.act of row r. -/
theorem rectify_row {n : Nat} (hb : Rw.Broadcasts (Blk n)) (a : FVec Ideal Rw .f32) (y : FVec Ideal (Blk n) .f32) (r : Fin n) :
    (fun j => rectify hb a y (ix2 r j)) = SE.act a (fun k => y (ix2 r k)) :=
  funext fun j => rectify_apply hb a y r j

/-- The block gate at (r, j) is the gate of row r at j. -/
theorem gateVec_apply {n : Nat} (d : DotDims (Blk n) Sq (Blk n)) (hd : IsRowsByMatrix d) (hb : Rw.Broadcasts (Blk n))
    (hc : Sq.ShapeCasts Sq) (s : FVec Ideal (Blk n) .f32) (W1 : FVec Ideal Sq .f32) (b1 a1 : FVec Ideal Rw .f32)
    (W2 : FVec Ideal Sq .f32) (b2 a2 : FVec Ideal Rw .f32) (W3 : FVec Ideal Sq .f32) (b3 : FVec Ideal Rw .f32)
    (r : Fin n) (j : Fin 512) :
    gateVec d hb hc s W1 b1 a1 W2 b2 a2 W3 b3 (ix2 r j)
      = SE.gateOf (fun k => s (ix2 r k)) W1 b1 a1 W2 b2 a2 W3 b3 j := by
  unfold gateVec SE.gateOf
  show FloatOps.logistic (layer d hb hc _ W3 b3 (ix2 r j)) = _
  rw [layer_apply d hd, rectify_row, layer_row d hd, rectify_row, layer_row d hd]
  rfl

end SE.Rows

end
-- ==== Proof.KernelPayload.lean ====
/-
  The fused kernel's body at one element of its block.

  On a block x0 : [4, 512, 1024] the body forms the 4 × 512 lane sums s(r, k) = ∑_l x0(r, k, l), sends the rows of s
  through the three-layer gate (scale by 2⁻¹⁰, three dense layers over the transposed weights with their biases, two
  parametric rectifiers, the logistic function), views the 4 × 512 gate as [4, 512, 1], repeats it along the 1024
  lanes and multiplies the block by it. Read at (r, c, l) this is x0(r, c, l) times the gate of row r at channel c,
  and the gate of row r reads only the 512 lane sums of that row.
-/
import proofs.«131134_g2000205275311698_pallasbulk_34_2_alg».proof.Proof.Gen.KernelIdeal.Skeleton
import proofs.«131134_g2000205275311698_pallasbulk_34_2_alg».proof.Proof.Spec
import proofs.«131134_g2000205275311698_pallasbulk_34_2_alg».proof.Proof.LibGateRows
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.KPay

open Cert.KernelIdeal Cert.KernelIdeal.Gen

/-- The lane sum of a block at (r, k): the sum over the 1024 lanes of row r, channel k. -/
theorem laneSum_apply (x0 : FVec Ideal S4x512x1024 .f32) (r : Fin 4) (k : Fin 512) :
    multiReduction (F := Ideal) .add [2] S4x512 x0 0x00000000#32 reduces_S4x512x1024_S4x512 (.inl rfl) rfl (ix2 r k)
      = ∑ l : Fin 1024, x0 (ix3 r k l) :=
  (Ideal.multiReduction_add_single x0 _ reduces_S4x512x1024_S4x512 (.inl rfl) rfl (ix2 r k)).trans
    (Finset.sum_congr rfl fun l _ => congrArg x0 (funext fun a => Fin.ext (by
      match a with
      | ⟨0, _⟩ => rfl
      | ⟨1, _⟩ => rfl
      | ⟨2, _⟩ => rfl)))

/-- A 4 × 512 block viewed as [4, 512, 1] reads, at (r, c, u), the block at (r, c). -/
theorem column_apply {α : Type} (g : S4x512.Idx → α) (r : Fin 4) (c : Fin 512) (u : Fin 1) :
    shapeCast S4x512x1 g shapeCasts_S4x512_S4x512x1 (ix3 r c u) = g (ix2 r c) :=
  shapeCast_apply g _ _ _ (by
    have hu : u.val = 0 := by omega
    rw [Shape.rowMajor_val_three, Shape.rowMajor_val_two]
    show r.val * 512 + c.val = (r.val * 512 + c.val) * 1 + u.val
    omega)

/-- A [4, 512, 1] column repeated along the 1024 lanes reads, at (r, c, l), the column at (r, c, 0). -/
theorem lanes_apply {α : Type} (g : S4x512x1.Idx → α) (r : Fin 4) (c : Fin 512) (l : Fin 1024) :
    broadcastTo S4x512x1024 g broadcasts_S4x512x1_S4x512x1024 (ix3 r c l) = g (ix3 r c (0 : Fin 1)) := by
  refine broadcastTo_apply g _ (ix3 r c l) (ix3 r c (0 : Fin 1)) fun ax => ?_
  match ax with
  | ⟨0, _⟩ => rfl
  | ⟨1, _⟩ => rfl
  | ⟨2, _⟩ => rfl

/-- The body's gate block is the three-layer gate of the block's lane sums. -/
theorem gate_eq (x0 : Vec Ideal S4x512x1024 .f32) (x1 : Vec Ideal S512x512 .f32) (x2 x3 : Vec Ideal S1x512 .f32)
    (x4 : Vec Ideal S512x512 .f32) (x5 x6 : Vec Ideal S1x512 .f32) (x7 : Vec Ideal S512x512 .f32) (x8 : Vec Ideal S1x512 .f32) :
    logistic (addf (k0_pay3 (F := Ideal) x0 x1 x2 x3 x4 x5 x6 x7) (broadcastTo S4x512 x8 broadcasts_S1x512_S4x512))
      = SE.Rows.gateVec dot_S4x512_S512x512_S4x512_1_0_0_1_n_n broadcasts_S1x512_S4x512 shapeCasts_S512x512_S512x512
          (multiReduction (F := Ideal) .add [2] S4x512 x0 0x00000000#32 reduces_S4x512x1024_S4x512 (.inl rfl) rfl)
          x1 x2 x3 x4 x5 x6 x7 x8 := by
  unfold k0_pay3 k0_pay2
  rw [shapeCast_self]
  rfl

/-- THE BODY AT (r, c, l): the input there times the gate of row r at channel c. -/
theorem pay_apply (x0 : Vec Ideal S4x512x1024 .f32) (x1 : Vec Ideal S512x512 .f32) (x2 x3 : Vec Ideal S1x512 .f32)
    (x4 : Vec Ideal S512x512 .f32) (x5 x6 : Vec Ideal S1x512 .f32) (x7 : Vec Ideal S512x512 .f32) (x8 : Vec Ideal S1x512 .f32)
    (r : Fin 4) (c : Fin 512) (l : Fin 1024) :
    k0_pay1 (F := Ideal) (k0_pay2 x0) (k0_pay3 x0 x1 x2 x3 x4 x5 x6 x7) x8 (ix3 r c l)
      = x0 (ix3 r c l) * SE.gateOf (fun k => ∑ l' : Fin 1024, x0 (ix3 r k l')) x1 x2 x3 x4 x5 x6 x7 x8 c := by
  unfold k0_pay1
  show k0_pay2 x0 (ix3 r c l) * broadcastTo S4x512x1024 (shapeCast S4x512x1 (logistic (addf (k0_pay3 (F := Ideal) x0 x1 x2 x3 x4 x5 x6 x7) (broadcastTo S4x512 x8 broadcasts_S1x512_S4x512))) shapeCasts_S4x512_S4x512x1) broadcasts_S4x512x1_S4x512x1024 (ix3 r c l) = _
  rw [lanes_apply, column_apply, gate_eq, SE.Rows.gateVec_apply _ ⟨rfl, rfl, rfl, rfl, rfl, rfl⟩]
  unfold k0_pay2
  rw [shapeCast_self]
  exact congrArg (fun s => x0 (ix3 r c l) * SE.gateOf s x1 x2 x3 x4 x5 x6 x7 x8 c) (funext fun k => laneSum_apply x0 r k)

end Cert.KernelIdeal.KPay

end
-- ==== Proof.KernelBlocks.lean ====
/-
  The fused kernel's side, from blocks to the array.

  The grid has 8 points; point t stages rows 4t … 4t+3 of the reshaped input x : [32, 512, 1024] (a block [4, 512, 1024]),
  the three transposed weights and the five bias / slope rows whole, and writes back one block [4, 512, 1024] of the
  result at the same rows. Since the gate of a batch row depends on that row's 512 lane sums only, what point t writes
  is rows 4t … 4t+3 of ONE function of the whole arrays — SE.out3 —, and the 8 blocks tile the 32 rows (row r lies in
  the block of point r / 4). So the result array ends holding SE.out3 of the arrays the region finds: the reshape of
  the first argument, the transposes of the three weights, the bias and slope rows as they are.
-/
import proofs.«131134_g2000205275311698_pallasbulk_34_2_alg».proof.Proof.Gen.KernelIdeal.Frame
import proofs.«131134_g2000205275311698_pallasbulk_34_2_alg».proof.Proof.Spec
import proofs.«131134_g2000205275311698_pallasbulk_34_2_alg».proof.Proof.KernelPayload
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KSide

open Cert.KernelIdeal Cert.KernelIdeal.Gen

variable (m : (ℓ : Loc nD τ sig) → Buf (Elt Ideal) ℓ) (ρ : Dev nD → PrngReg)

/-! ## The arrays the region finds -/

/-- The input the region stages is the first argument reshaped [32, 512, 32, 32] → [32, 512, 1024]. -/
theorem V_x (c : Dev nD) : (V m c main_call0_v0 : S32x512x1024.Idx → EReal)
    = shapeCast S32x512x1024 (m ((c : Thread nD τ).loc main_arg0) : S32x512x32x32.Idx → EReal) shapeCasts_S32x512x32x32_S32x512x1024 := by
  show StableHlo.after hostOps0 (fun b => m (c, b)) (Proc.devRef .tc main_call0_v0) = _
  after_results
  rfl

/-- The first weight the region stages is the second argument transposed. -/
theorem V_w1 (c : Dev nD) : (V m c main_call0_v1 : S512x512.Idx → EReal)
    = transpose S512x512 [1, 0] (m ((c : Thread nD τ).loc main_arg1) : S512x512.Idx → EReal) transposes_S512x512_S512x512_1_0 := by
  show StableHlo.after hostOps0 (fun b => m (c, b)) (Proc.devRef .tc main_call0_v1) = _
  after_results
  rfl

/-- The second weight the region stages is the fifth argument transposed. -/
theorem V_w2 (c : Dev nD) : (V m c main_call0_v2 : S512x512.Idx → EReal)
    = transpose S512x512 [1, 0] (m ((c : Thread nD τ).loc main_arg4) : S512x512.Idx → EReal) transposes_S512x512_S512x512_1_0 := by
  show StableHlo.after hostOps0 (fun b => m (c, b)) (Proc.devRef .tc main_call0_v2) = _
  after_results
  rfl

/-- The third weight the region stages is the eighth argument transposed. -/
theorem V_w3 (c : Dev nD) : (V m c main_call0_v3 : S512x512.Idx → EReal)
    = transpose S512x512 [1, 0] (m ((c : Thread nD τ).loc main_arg7) : S512x512.Idx → EReal) transposes_S512x512_S512x512_1_0 := by
  show StableHlo.after hostOps0 (fun b => m (c, b)) (Proc.devRef .tc main_call0_v3) = _
  after_results
  rfl

/-! ## One element of one block -/

theorem hz3 : (![0, 0, 0] : Fin 3 → Nat) = fun _ => 0 := funext fun a => by fin_cases a <;> rfl
theorem hz2 : (![0, 0] : Fin 2 → Nat) = fun _ => 0 := funext fun a => by fin_cases a <;> rfl

/-- If row r of the staged block is row b of the array X, the body's value at (r, k, l) is SE.out3 of X at (b, k, l):
    the lane sums of row r of the block are those of row b of X, and the gate reads nothing else of the input. -/
theorem block_point (X : SE.Cube) (x0 : Vec Ideal S4x512x1024 .f32) (x1 : Vec Ideal S512x512 .f32) (x2 x3 : Vec Ideal S1x512 .f32)
    (x4 : Vec Ideal S512x512 .f32) (x5 x6 : Vec Ideal S1x512 .f32) (x7 : Vec Ideal S512x512 .f32) (x8 : Vec Ideal S1x512 .f32)
    (b : Fin 32) (r : Fin 4) (hx : ∀ (k : Fin 512) (l : Fin 1024), x0 (ix3 r k l) = X (ix3 b k l)) (k : Fin 512) (l : Fin 1024) :
    k0_pay1 (F := Ideal) (k0_pay2 x0) (k0_pay3 x0 x1 x2 x3 x4 x5 x6 x7) x8 (ix3 r k l) = SE.out3 X x1 x2 x3 x4 x5 x6 x7 x8 (ix3 b k l) := by
  rw [KPay.pay_apply x0 x1 x2 x3 x4 x5 x6 x7 x8 r k l, SE.out3_apply, hx k l]
  unfold SE.gate SE.rowSum
  simp only [hx]

/-! ## The blocks -/

/-- The printed index maps over the grid: the input's and the result's blocks sit at rows 4t, every other window's
    block is its whole array. -/
theorem idx_facts : ∀ t : Fin cfg0.N,
    win0_0.index t (0 : Fin 3) = t.val ∧ win0_0.index t (1 : Fin 3) = 0 ∧ win0_0.index t (2 : Fin 3) = 0
    ∧ win0_9.index t (0 : Fin 3) = t.val ∧ win0_9.index t (1 : Fin 3) = 0 ∧ win0_9.index t (2 : Fin 3) = 0 :=
  (by decide +kernel : ∀ t : Fin grid0.N, _)

theorem idx_whole : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- A window whose block is its whole array stages the array. -/
theorem iblk1 (c : Dev nD) (t : Fin cfg0.N) : (iblk m c 1 t : S512x512.Idx → EReal) = V m c main_call0_v1 := by
  obtain ⟨⟨e0, e1⟩, -⟩ := idx_whole t
  funext y
  show V m c main_call0_v1 (((cfg0.win 1).blk t).view.emb y) = V m c main_call0_v1 y
  have h : ((cfg0.win 1).blk t).view.emb y = y := by
    funext a; apply Fin.ext
    match a with
    | ⟨0, _⟩ => show win0_1.index t (0 : Fin 2) * 512 + 1 * (y 0).val = (y 0).val; omega
    | ⟨1, _⟩ => show win0_1.index t (1 : Fin 2) * 512 + 1 * (y 1).val = (y 1).val; omega
  rw [h]
theorem iblk2 (c : Dev nD) (t : Fin cfg0.N) : (iblk m c 2 t : S1x512.Idx → EReal) = V m c main_arg2 := by
  obtain ⟨-, ⟨e0, e1⟩, -⟩ := idx_whole t
  funext y
  show V m c main_arg2 (((cfg0.win 2).blk t).view.emb y) = V m c main_arg2 y
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 512 + 1 * (y 1).val = (y 1).val; omega
  rw [h]
theorem iblk3 (c : Dev nD) (t : Fin cfg0.N) : (iblk m c 3 t : S1x512.Idx → EReal) = V m c main_arg3 := by
  obtain ⟨-, -, ⟨e0, e1⟩, -⟩ := idx_whole t
  funext y
  show V m c main_arg3 (((cfg0.win 3).blk t).view.emb y) = V m c main_arg3 y
  have h : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 512 + 1 * (y 1).val = (y 1).val; omega
  rw [h]
theorem iblk4 (c : Dev nD) (t : Fin cfg0.N) : (iblk m c 4 t : S512x512.Idx → EReal) = V m c main_call0_v2 := by
  obtain ⟨-, -, -, ⟨e0, e1⟩, -⟩ := idx_whole t
  funext y
  show V m c main_call0_v2 (((cfg0.win 4).blk t).view.emb y) = V m c main_call0_v2 y
  have h : ((cfg0.win 4).blk t).view.emb y = y := by
    funext a; apply Fin.ext
    match a with
    | ⟨0, _⟩ => show win0_4.index t (0 : Fin 2) * 512 + 1 * (y 0).val = (y 0).val; omega
    | ⟨1, _⟩ => show win0_4.index t (1 : Fin 2) * 512 + 1 * (y 1).val = (y 1).val; omega
  rw [h]
theorem iblk5 (c : Dev nD) (t : Fin cfg0.N) : (iblk m c 5 t : S1x512.Idx → EReal) = V m c main_arg5 := by
  obtain ⟨-, -, -, -, ⟨e0, e1⟩, -⟩ := idx_whole t
  funext y
  show V m c main_arg5 (((cfg0.win 5).blk t).view.emb y) = V m c main_arg5 y
  have h : ((cfg0.win 5).blk t).view.emb y = y := by
    funext a; apply Fin.ext
    match a with
    | ⟨0, _⟩ => show win0_5.index t (0 : Fin 2) * 1 + 1 * (y 0).val = (y 0).val; omega
    | ⟨1, _⟩ => show win0_5.index t (1 : Fin 2) * 512 + 1 * (y 1).val = (y 1).val; omega
  rw [h]
theorem iblk6 (c : Dev nD) (t : Fin cfg0.N) : (iblk m c 6 t : S1x512.Idx → EReal) = V m c main_arg6 := by
  obtain ⟨-, -, -, -, -, ⟨e0, e1⟩, -⟩ := idx_whole t
  funext y
  show V m c main_arg6 (((cfg0.win 6).blk t).view.emb y) = V m c main_arg6 y
  have h : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 512 + 1 * (y 1).val = (y 1).val; omega
  rw [h]
theorem iblk7 (c : Dev nD) (t : Fin cfg0.N) : (iblk m c 7 t : S512x512.Idx → EReal) = V m c main_call0_v3 := by
  obtain ⟨-, -, -, -, -, -, ⟨e0, e1⟩, -⟩ := idx_whole t
  funext y
  show V m c main_call0_v3 (((cfg0.win 7).blk t).view.emb y) = V m c main_call0_v3 y
  have h : ((cfg0.win 7).blk t).view.emb y = y := by
    funext a; apply Fin.ext
    match a with
    | ⟨0, _⟩ => show win0_7.index t (0 : Fin 2) * 512 + 1 * (y 0).val = (y 0).val; omega
    | ⟨1, _⟩ => show win0_7.index t (1 : Fin 2) * 512 + 1 * (y 1).val = (y 1).val; omega
  rw [h]
theorem iblk8 (c : Dev nD) (t : Fin cfg0.N) : (iblk m c 8 t : S1x512.Idx → EReal) = V m c main_arg8 := by
  obtain ⟨-, -, -, -, -, -, -, e0, e1⟩ := idx_whole t
  funext y
  show V m c main_arg8 (((cfg0.win 8).blk t).view.emb y) = V m c main_arg8 y
  have h : ((cfg0.win 8).blk t).view.emb y = y := by
    funext a; apply Fin.ext
    match a with
    | ⟨0, _⟩ => show win0_8.index t (0 : Fin 2) * 1 + 1 * (y 0).val = (y 0).val; omega
    | ⟨1, _⟩ => show win0_8.index t (1 : Fin 2) * 512 + 1 * (y 1).val = (y 1).val; omega
  rw [h]

/-- Row r of the input block at point t is row 4t + r of the staged input. -/
theorem iblk0 (c : Dev nD) (t : Fin cfg0.N) (r : Fin 4) (b : Fin 32) (hb : b.val = t.val * 4 + r.val) (k : Fin 512) (l : Fin 1024) :
    (iblk m c 0 t : S4x512x1024.Idx → EReal) (ix3 r k l) = (V m c main_call0_v0 : S32x512x1024.Idx → EReal) (ix3 b k l) := by
  obtain ⟨e0, e1, e2, -⟩ := idx_facts t
  show V m c main_call0_v0 (((cfg0.win 0).blk t).view.emb (ix3 r k l)) = V m c main_call0_v0 (ix3 b k l)
  have h : ((cfg0.win 0).blk t).view.emb (ix3 r k l) = ix3 b k l := by
    funext a; apply Fin.ext
    match a with
    | ⟨0, _⟩ => show win0_0.index t (0 : Fin 3) * 4 + 1 * r.val = b.val; omega
    | ⟨1, _⟩ => show win0_0.index t (1 : Fin 3) * 512 + 1 * k.val = k.val; omega
    | ⟨2, _⟩ => show win0_0.index t (2 : Fin 3) * 1024 + 1 * l.val = l.val; omega
  rw [h]

/-- What the result array ends holding, over the arrays as the region finds them. -/
abbrev G (c : Dev nD) : S32x512x1024.Idx → EReal :=
  SE.out3 (V m c main_call0_v0) (V m c main_call0_v1) (V m c main_arg2) (V m c main_arg3) (V m c main_call0_v2)
    (V m c main_arg5) (V m c main_arg6) (V m c main_call0_v3) (V m c main_arg8)

/-- What point t writes back is rows 4t … 4t+3 of G. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  unfold out0_9
  rw [View.canon_unit_zero hz3]
  simp only [View.ld_unit_zero (S := S4x512x1024) hz3, View.ld_unit_zero (S := S512x512) hz2, View.ld_unit_zero (S := S1x512) hz2]
  obtain ⟨-, -, -, e0, e1, e2⟩ := idx_facts t
  have hN : cfg0.N = 8 := N_0
  have ht : t.val < 8 := hN ▸ t.isLt
  funext j
  obtain ⟨r, k, l, rfl⟩ : ∃ (r : Fin 4) (k : Fin 512) (l : Fin 1024), j = ix3 r k l := ⟨j 0, j 1, j 2, eq_ix3 j⟩
  have hb : t.val * 4 + r.val < 32 := by have := r.isLt; omega
  show k0_pay1 (F := Ideal) (k0_pay2 (iblk m c 0 t)) (k0_pay3 (iblk m c 0 t) (iblk m c 1 t) (iblk m c 2 t) (iblk m c 3 t) (iblk m c 4 t) (iblk m c 5 t) (iblk m c 6 t) (iblk m c 7 t)) (iblk m c 8 t) (ix3 r k l)
    = G m c (((cfg0.win 9).blk t).view.emb (ix3 r k l))
  have h : ((cfg0.win 9).blk t).view.emb (ix3 r k l) = ix3 (⟨t.val * 4 + r.val, hb⟩ : Fin 32) k l := by
    funext a; apply Fin.ext
    match a with
    | ⟨0, _⟩ => show win0_9.index t (0 : Fin 3) * 4 + 1 * r.val = t.val * 4 + r.val; omega
    | ⟨1, _⟩ => show win0_9.index t (1 : Fin 3) * 512 + 1 * k.val = k.val; omega
    | ⟨2, _⟩ => show win0_9.index t (2 : Fin 3) * 1024 + 1 * l.val = l.val; omega
  rw [h]
  refine (block_point (V m c main_call0_v0) (iblk m c 0 t) (iblk m c 1 t) (iblk m c 2 t) (iblk m c 3 t) (iblk m c 4 t) (iblk m c 5 t) (iblk m c 6 t) (iblk m c 7 t) (iblk m c 8 t)
    ⟨t.val * 4 + r.val, hb⟩ r (fun k' l' => iblk0 m c t r ⟨t.val * 4 + r.val, hb⟩ rfl k' l') k l).trans ?_
  rw [iblk1 m c t, iblk2 m c t, iblk3 m c t, iblk4 m c t, iblk5 m c t, iblk6 m c t, iblk7 m c t, iblk8 m c t]

/-- An index of the array is in point t's block iff each coordinate is in the block's range on its axis. -/
theorem mem_blk (t : Fin cfg0.N) (i : S32x512x1024.Idx) :
    i ∈ ((cfg0.win 9).blk t).view.set ↔ ∀ a : Fin 3, win0_9.index t a * S4x512x1024.size a ≤ (i a).val ∧ (i a).val < win0_9.index t a * S4x512x1024.size a + S4x512x1024.size a := by
  show i ∈ ((View.whole main_call0_v4).slice (win0_9.rect t)).set ↔ _
  rw [View.set_slice_whole, Rect.mem_set_unit]
  exact Iff.rfl

/-- Batch row r lies in the block of point r / 4. -/
theorem cover (i : S32x512x1024.Idx) : ∃ t : Fin cfg0.N, (cfg0.win 9).flush t = true ∧ i ∈ ((cfg0.win 9).blk t).view.set := by
  have hN : cfg0.N = 8 := N_0
  have hi0 : (i 0).val < 32 := (i 0).isLt
  have hi1 : (i 1).val < 512 := (i 1).isLt
  have hi2 : (i 2).val < 1024 := (i 2).isLt
  let t : Fin cfg0.N := ⟨(i 0).val / 4, by omega⟩
  have htv : t.val = (i 0).val / 4 := rfl
  obtain ⟨-, -, -, e0, e1, e2⟩ := idx_facts t
  refine ⟨t, flush0_9 t, ?_⟩
  rw [mem_blk]
  intro a
  match a with
  | ⟨0, _⟩ => show win0_9.index t (0 : Fin 3) * 4 ≤ (i 0).val ∧ (i 0).val < win0_9.index t (0 : Fin 3) * 4 + 4; omega
  | ⟨1, _⟩ => show win0_9.index t (1 : Fin 3) * 512 ≤ (i 1).val ∧ (i 1).val < win0_9.index t (1 : Fin 3) * 512 + 512; omega
  | ⟨2, _⟩ => show win0_9.index t (2 : Fin 3) * 1024 ≤ (i 2).val ∧ (i 2).val < win0_9.index t (2 : Fin 3) * 1024 + 1024; omega

/-- The result array after the region: SE.out3 of the reshaped input, the transposed weights, the biases and slopes. -/
theorem final (c : Dev nD) : (dats m 0 c).arrAt 9 cfg0.N
    = SE.out3 (shapeCast S32x512x1024 (m ((c : Thread nD τ).loc main_arg0) : S32x512x32x32.Idx → EReal) shapeCasts_S32x512x32x32_S32x512x1024)
        (transpose S512x512 [1, 0] (m ((c : Thread nD τ).loc main_arg1) : S512x512.Idx → EReal) transposes_S512x512_S512x512_1_0)
        (m ((c : Thread nD τ).loc main_arg2)) (m ((c : Thread nD τ).loc main_arg3))
        (transpose S512x512 [1, 0] (m ((c : Thread nD τ).loc main_arg4) : S512x512.Idx → EReal) transposes_S512x512_S512x512_1_0)
        (m ((c : Thread nD τ).loc main_arg5)) (m ((c : Thread nD τ).loc main_arg6))
        (transpose S512x512 [1, 0] (m ((c : Thread nD τ).loc main_arg7) : S512x512.Idx → EReal) transposes_S512x512_S512x512_1_0)
        (m ((c : Thread nD τ).loc main_arg8)) := by
  rw [← V_x m c, ← V_w1 m c, ← V_w2 m c, ← V_w3 m c, ← V_main_arg2 m c, ← V_main_arg3 m c, ← V_main_arg5 m c, ← V_main_arg6 m c, ← V_main_arg8 m c]
  exact (dats m 0 c).arrAt_eq_of_cover 9 (G m c) (fun t _ => flushed_eq m c t) cover

end Cert.KernelIdeal.KSide

end
-- ==== Proof.KernelRun.lean ====
/-
  The fused kernel's run, read as one function of its nine arguments.

  The program reshapes its first argument [32, 512, 32, 32] to [32, 512, 1024], transposes its three weights, runs the
  region on those arrays and the five bias / slope rows, and reshapes the region's result back to [32, 512, 32, 32].
  The region leaves SE.out3 of the arrays it finds, so the result is the reshape back of SE.out3 of the reshaped
  input, the transposed weights, and the rows as they are; every argument ends as it was launched.
-/
import proofs.«131134_g2000205275311698_pallasbulk_34_2_alg».proof.Proof.KernelBlocks

noncomputable section

open Idealize.ShloMosaic Idealize.ShloMosaic.TcCoe Idealize.SL.Sem Idealize.ShloMosaic.ValueIdx
open Idealize.ShloMosaic.Pipeline (Dat)

namespace Cert.KernelIdeal.KSide

open Cert.KernelIdeal Cert.KernelIdeal.Gen

/-- The program's result as a function of its arguments: reshape to [32, 512, 1024], transpose the weights, gate, and
    reshape back. -/
def result (x : FVec Ideal S32x512x32x32 .f32) (w1 : FVec Ideal S512x512 .f32) (b1 a1 : FVec Ideal S1x512 .f32)
    (w2 : FVec Ideal S512x512 .f32) (b2 a2 : FVec Ideal S1x512 .f32) (w3 : FVec Ideal S512x512 .f32) (b3 : FVec Ideal S1x512 .f32) :
    FVec Ideal S32x512x32x32 .f32 :=
  shapeCast S32x512x32x32
    (SE.out3 (shapeCast S32x512x1024 x shapeCasts_S32x512x32x32_S32x512x1024)
      (transpose S512x512 [1, 0] w1 transposes_S512x512_S512x512_1_0) b1 a1
      (transpose S512x512 [1, 0] w2 transposes_S512x512_S512x512_1_0) b2 a2
      (transpose S512x512 [1, 0] w3 transposes_S512x512_S512x512_1_0) b3)
    shapeCasts_S32x512x1024_S32x512x32x32

variable (m : (ℓ : Loc nD τ sig) → Buf (Elt Ideal) ℓ) (ρ : Dev nD → PrngReg)

/-- The line after the region reshapes the region's result array [32, 512, 1024] back to [32, 512, 32, 32]. -/
theorem tail_eq (c : Dev nD) : (Pipeline.afterTail₀ cfgs (dats m) 0 (V0 m) [hostOps1] c main_v0 : S32x512x32x32.Idx → EReal)
    = shapeCast S32x512x32x32 ((dats m 0 c).arrAt 9 cfg0.N : S32x512x1024.Idx → EReal) shapeCasts_S32x512x1024_S32x512x32x32 := by
  unfold Pipeline.afterTail₀
  show StableHlo.after hostOps1 _ (Proc.devRef .tc main_v0) = _
  after_results
  have h : Pipeline.withArrays (cfgs 0).spec c (V0 m c) (fun w => (dats m 0 c).arrAt w (cfgs 0).N) (Proc.devRef .tc main_call0_v4) = (dats m 0 c).arrAt 9 cfg0.N :=
    Pipeline.withArrays_arr spec0 launch0.win.arr_inj c (V0 m c) (fun w => (dats m 0 c).arrAt w cfg0.N) 9
  rw [h]
  rfl

/-- The result buffer after the whole program. -/
theorem result_eq (c : Dev nD) : (Pipeline.afterTail₀ cfgs (dats m) 0 (V0 m) [hostOps1] c main_v0 : S32x512x32x32.Idx → EReal)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (tail_eq m c).trans (congrArg (fun g : S32x512x1024.Idx → EReal => shapeCast S32x512x32x32 g shapeCasts_S32x512x1024_S32x512x32x32) (final m c))

/-- THE RUN: every weakly fair execution terminates with the result buffer at `result` of the arguments and every
    argument as launched. -/
theorem run : θ_run (defs (F := Ideal)) (onTc (τ := τ) (main (F := Ideal))) ⟨m, fun _ => 0, ρ⟩ (fun r => ∀ c : Dev nD,
      r.2.mem ((c.tc : Thread nD τ).loc main_v0) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v0 (Pipeline.mem_restRefs_of main_v0 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c)))⟩) (run_main m ρ)

end Cert.KernelIdeal.KSide

end
-- ==== Proof.R0Shared.lean ====
/-
  The first region of the reference: the gate's pallas_call, a grid of 1 × 8 points over eight 128-lane tiles of the
  reshaped input, carrying a [32, 512] accumulator in scratch between points. This module holds what the three control
  cases of its body share, at a parameter V (the buffer contents the region is entered with): each window's block at
  a point; that an input's staging buffer holds its block at every point; the two branch conditions decided over the
  grid (the accumulator is reset at tile 0 only, the gate is computed and stored at tile 7 only); where the output
  window is idle; the staging and scratch memrefs; and the region's resting invariant with the scratch named.
-/
import proofs.«131134_g2000205275311698_pallasbulk_34_2_alg».proof.Proof.Gen.ReferenceIdeal.Launch
import proofs.«131134_g2000205275311698_pallasbulk_34_2_alg».proof.Proof.Gen.ReferenceIdeal.Skeleton
import proofs.«131134_g2000205275311698_pallasbulk_34_2_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions over the grid -/

/-- "This is lane tile 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is lane tile 7": the gate is computed and stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_in : ∀ (w : Fin 10), w.val < 9 → ∀ t : Fin cfg0.N, cfg0.idle w (grid0.coords t) = false := by decide +kernel
/-- Where the gate is not stored the output window is idle and not written back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-! ## The memrefs the body is called with -/

/-- One staging buffer of the output window, through which its contents are stated. -/
abbrev VO0_9 : View sig .tc .vmem S32x512 .f32 := (Memref.whole cc0_stg9_0 : Memref sig .tc .vmem S32x512 .f32).view
/-- The accumulator: a whole scoped buffer of the kernel's own. -/
abbrev scM0 : Memref sig .tc .vmem S32x512 .f32 := Memref.whole cc0_scratch0
abbrev VS0 : View sig .tc .vmem S32x512 .f32 := (scM0 : Memref sig .tc .vmem S32x512 .f32).view

end Cert.ReferenceIdeal.Hand

end
-- ==== Proof.R0RunA.lean ====
/-
  The gate kernel's body at lane tile 0 (the reset branch taken, the gate branch not): it zeroes the accumulator, then adds the tile's lane sums into it. Stated on whole memrefs: the input tile at its contents, the accumulator at anything; the body runs to the continuation with the tile as it was and the accumulator holding the pieces its two stores wrote (last first), which the symbolic run finds.
-/
import proofs.«131134_g2000205275311698_pallasbulk_34_2_alg».proof.Proof.R0Shared

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S32x512x128 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x512 .f32) (harg11 : arg11.IsWhole) (arg12 : Memref sig .tc .vmem S32x512 .f32) (harg12 : arg12.IsWhole) (hc0 : cond0_0 i) (hc1 : ¬cond0_1 i)
    (x0 : Vec F S32x512x128 .f32) :
    { LS0 : List (View.Piece (Elt F) S32x512 .f32) //
      ∀ (E : Set ℕ) (K : PUnit → sProp 𝕄),
        iprop(owns (c : Thread nD τ) arg2 fullShare x0 ∗ (∃ d, owns (c : Thread nD τ) arg12 fullShare d)
            ∗ (iprop(owns (c : Thread nD τ) arg2 fullShare x0 ∗ (∃ f, arg12.view.loc (c : Thread nD τ) ↦[arg12.view.set]{fullShare} arg12.view.writes (Elt F) f LS0)) -∗ K ⟨⟩))
          ⊢ wp frame (wpE (defs₀ (F := F)) Variants.none c none) E (cc0__se_fc_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__se_fc_kernel_eq_skeleton]; unfold cc0__se_fc_kernel_skel
    unfold owns
    iintro ⟨⟨%f0, %hf0, H0⟩, ⟨%ds0, %fs0, -, HS0⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact HS0

end Cert.ReferenceIdeal.Hand

end
-- ==== Proof.R0RunB.lean ====
/-
  The gate kernel's body at lane tiles 1 to 6 (neither branch taken): it adds the tile's lane sums into the accumulator. Stated on whole memrefs: the input tile at its contents, the accumulator at what the tile before left; the body runs to the continuation with the tile as it was and the accumulator holding the piece its store wrote, which the symbolic run finds.
-/
import proofs.«131134_g2000205275311698_pallasbulk_34_2_alg».proof.Proof.R0Shared

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S32x512x128 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x512 .f32) (harg11 : arg11.IsWhole) (arg12 : Memref sig .tc .vmem S32x512 .f32) (harg12 : arg12.IsWhole) (hc0 : ¬cond0_0 i) (hc1 : ¬cond0_1 i)
    (x0 : Vec F S32x512x128 .f32) (xs0 : Vec F S32x512 .f32) :
    { LS0 : List (View.Piece (Elt F) S32x512 .f32) //
      ∀ (E : Set ℕ) (K : PUnit → sProp 𝕄),
        iprop(owns (c : Thread nD τ) arg2 fullShare x0 ∗ owns (c : Thread nD τ) arg12 fullShare xs0
            ∗ (iprop(owns (c : Thread nD τ) arg2 fullShare x0 ∗ (∃ f, arg12.view.loc (c : Thread nD τ) ↦[arg12.view.set]{fullShare} arg12.view.writes (Elt F) f LS0)) -∗ K ⟨⟩))
          ⊢ wp frame (wpE (defs₀ (F := F)) Variants.none c none) E (cc0__se_fc_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__se_fc_kernel_eq_skeleton]; unfold cc0__se_fc_kernel_skel
    unfold owns
    iintro ⟨⟨%f0, %hf0, H0⟩, ⟨%fs0, %hfs0, HS0⟩, Hk⟩
    obtain rfl := harg2.eq_unread hf0; obtain rfl := harg12.eq_unread hfs0
    sl_exec (disch := first | exact hc0 | exact hc1)
    sl_step
    iapply Hk
    isplitl [H0]
    · iexists _; isplitr; · ipureintro; exact harg2.read_unread _
      iexact H0
    iexists _; iexact HS0

end Cert.ReferenceIdeal.Hand

end
-- ==== Proof.R0RunC.lean ====
/-
  The gate kernel's body at lane tile 7 (the gate branch taken, the reset branch not): it adds the last tile's lane sums into the accumulator, reads the total back, computes the gate from it and the three dense layers' arrays, and stores the gate into the output window. Stated on whole memrefs: the nine inputs at their contents, the output at anything, the accumulator at what the tile before left; the body runs to the continuation with the inputs as they were and the output and the accumulator holding the pieces their stores wrote, which the symbolic run finds.
-/
import proofs.«131134_g2000205275311698_pallasbulk_34_2_alg».proof.Proof.R0Shared

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 2000000 in
noncomputable def kernelRun0_C (c : Dev nD) (i : grid0.Coords) (arg2 : Memref sig .tc .vmem S32x512x128 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x512 .f32) (harg11 : arg11.IsWhole) (arg12 : Memref sig .tc .vmem S32x512 .f32) (harg12 : arg12.IsWhole) (hc0 : ¬cond0_0 i) (hc1 : cond0_1 i)
    (x0 : Vec F S32x512x128 .f32) (x1 : Vec F S512x512 .f32) (x2 : Vec F S1x512 .f32) (x3 : Vec F S1x512 .f32) (x4 : Vec F S512x512 .f32) (x5 : Vec F S1x512 .f32) (x6 : Vec F S1x512 .f32) (x7 : Vec F S512x512 .f32) (x8 : Vec F S1x512 .f32) (xs0 : Vec F S32x512 .f32) :
    Σ' (L9 : List (View.Piece (Elt F) S32x512 .f32)), { LS0 : List (View.Piece (Elt F) S32x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0__se_fc_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__se_fc_kernel_eq_skeleton]; unfold cc0__se_fc_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS0

end Cert.ReferenceIdeal.Hand

end
-- ==== Proof.R0Frame.lean ====
/-
  The first region of the reference, assembled: what each control case of the gate kernel's body leaves in the
  accumulator and in the output window (the pieces its symbolic run found, read back), the accumulation over the
  eight lane tiles by recursion on the point (tile 0 resets and adds, every later tile adds to what the tile before
  left, tile 7 also stores the gate), the region's invariant tracking the accumulator's contents between points,
  the pipeline's proof data and the body obligation at every point. At a parameter V: the buffer contents the
  region is entered with.
-/
import proofs.«131134_g2000205275311698_pallasbulk_34_2_alg».proof.Proof.R0RunA
import proofs.«131134_g2000205275311698_pallasbulk_34_2_alg».proof.Proof.R0RunB
import proofs.«131134_g2000205275311698_pallasbulk_34_2_alg».proof.Proof.R0RunC

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The staging memrefs at a point -/
abbrev ms0_0 (t : Fin cfg0.N) : Memref sig .tc .vmem S32x512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x512 .f32 := win0_9.stage (cfg0.slots t 9)
abbrev hs0_9 (t : Fin cfg0.N) : (ms0_9 t).IsWhole := hstage0_9 ((cfg0.slots t 9).cast nbuf0_9)

/-! ## What each case leaves -/

/-- Tile 0's two stores cover the accumulator. -/
theorem scover0_A (c : Dev nD) (i : grid0.Coords) (arg2 : Memref sig .tc .vmem S32x512x128 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x512 .f32) (harg11 : arg11.IsWhole) (arg12 : Memref sig .tc .vmem S32x512 .f32) (harg12 : arg12.IsWhole) (hc0 : cond0_0 i) (hc1 : ¬cond0_1 i)
    (x0 : Vec F S32x512x128 .f32) (y : S32x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0).1 S32x512.size (by sl_kernel_rfl) y
/-- What tile 0 leaves in the accumulator. -/
def sout0_A (c : Dev nD) (i : grid0.Coords) (arg2 : Memref sig .tc .vmem S32x512x128 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x512 .f32) (harg11 : arg11.IsWhole) (arg12 : Memref sig .tc .vmem S32x512 .f32) (harg12 : arg12.IsWhole) (hc0 : cond0_0 i) (hc1 : ¬cond0_1 i)
    (x0 : Vec F S32x512x128 .f32) : Vec F S32x512 .f32 :=
  VS0.read (Elt F) (VS0.writes (Elt F) VS0.junk (kernelRun0_A c i arg2 harg2 arg3 harg3 arg4 harg4 arg5 harg5 arg6 harg6 arg7 harg7 arg8 harg8 arg9 harg9 arg10 harg10 arg11 harg11 arg12 harg12 hc0 hc1 x0).1)

theorem scover0_B (c : Dev nD) (i : grid0.Coords) (arg2 : Memref sig .tc .vmem S32x512x128 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x512 .f32) (harg11 : arg11.IsWhole) (arg12 : Memref sig .tc .vmem S32x512 .f32) (harg12 : arg12.IsWhole) (hc0 : ¬cond0_0 i) (hc1 : ¬cond0_1 i)
    (x0 : Vec F S32x512x128 .f32) (xs0 : Vec F S32x512 .f32) (y : S32x512.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 xs0).1 S32x512.size (by sl_kernel_rfl) y
/-- What a middle tile leaves in the accumulator, over what the tile before left. -/
def sout0_B (c : Dev nD) (i : grid0.Coords) (arg2 : Memref sig .tc .vmem S32x512x128 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x512 .f32) (harg11 : arg11.IsWhole) (arg12 : Memref sig .tc .vmem S32x512 .f32) (harg12 : arg12.IsWhole) (hc0 : ¬cond0_0 i) (hc1 : ¬cond0_1 i)
    (x0 : Vec F S32x512x128 .f32) (xs0 : Vec F S32x512 .f32) : Vec F S32x512 .f32 :=
  VS0.read (Elt F) (VS0.writes (Elt F) VS0.junk (kernelRun0_B c i arg2 harg2 arg3 harg3 arg4 harg4 arg5 harg5 arg6 harg6 arg7 harg7 arg8 harg8 arg9 harg9 arg10 harg10 arg11 harg11 arg12 harg12 hc0 hc1 x0 xs0).1)

theorem cover0_C (c : Dev nD) (i : grid0.Coords) (arg2 : Memref sig .tc .vmem S32x512x128 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x512 .f32) (harg11 : arg11.IsWhole) (arg12 : Memref sig .tc .vmem S32x512 .f32) (harg12 : arg12.IsWhole) (hc0 : ¬cond0_0 i) (hc1 : cond0_1 i)
    (x0 : Vec F S32x512x128 .f32) (x1 : Vec F S512x512 .f32) (x2 : Vec F S1x512 .f32) (x3 : Vec F S1x512 .f32) (x4 : Vec F S512x512 .f32) (x5 : Vec F S1x512 .f32) (x6 : Vec F S1x512 .f32) (x7 : Vec F S512x512 .f32) (x8 : Vec F S1x512 .f32) (xs0 : Vec F S32x512 .f32) (y : S32x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1 S32x512.size (by sl_kernel_rfl) y
/-- What tile 7 leaves in the output window: the gate. -/
def out0_C (c : Dev nD) (i : grid0.Coords) (arg2 : Memref sig .tc .vmem S32x512x128 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x512 .f32) (harg11 : arg11.IsWhole) (arg12 : Memref sig .tc .vmem S32x512 .f32) (harg12 : arg12.IsWhole) (hc0 : ¬cond0_0 i) (hc1 : cond0_1 i)
    (x0 : Vec F S32x512x128 .f32) (x1 : Vec F S512x512 .f32) (x2 : Vec F S1x512 .f32) (x3 : Vec F S1x512 .f32) (x4 : Vec F S512x512 .f32) (x5 : Vec F S1x512 .f32) (x6 : Vec F S1x512 .f32) (x7 : Vec F S512x512 .f32) (x8 : Vec F S1x512 .f32) (xs0 : Vec F S32x512 .f32) : Vec F S32x512 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).1)
theorem scover0_C (c : Dev nD) (i : grid0.Coords) (arg2 : Memref sig .tc .vmem S32x512x128 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x512 .f32) (harg11 : arg11.IsWhole) (arg12 : Memref sig .tc .vmem S32x512 .f32) (harg12 : arg12.IsWhole) (hc0 : ¬cond0_0 i) (hc1 : cond0_1 i)
    (x0 : Vec F S32x512x128 .f32) (x1 : Vec F S512x512 .f32) (x2 : Vec F S1x512 .f32) (x3 : Vec F S1x512 .f32) (x4 : Vec F S512x512 .f32) (x5 : Vec F S1x512 .f32) (x6 : Vec F S1x512 .f32) (x7 : Vec F S512x512 .f32) (x8 : Vec F S1x512 .f32) (xs0 : Vec F S32x512 .f32) (y : S32x512.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1 S32x512.size (by sl_kernel_rfl) y
/-- What tile 7 leaves in the accumulator. -/
def sout0_C (c : Dev nD) (i : grid0.Coords) (arg2 : Memref sig .tc .vmem S32x512x128 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x512 .f32) (harg11 : arg11.IsWhole) (arg12 : Memref sig .tc .vmem S32x512 .f32) (harg12 : arg12.IsWhole) (hc0 : ¬cond0_0 i) (hc1 : cond0_1 i)
    (x0 : Vec F S32x512x128 .f32) (x1 : Vec F S512x512 .f32) (x2 : Vec F S1x512 .f32) (x3 : Vec F S1x512 .f32) (x4 : Vec F S512x512 .f32) (x5 : Vec F S1x512 .f32) (x6 : Vec F S1x512 .f32) (x7 : Vec F S512x512 .f32) (x8 : Vec F S1x512 .f32) (xs0 : Vec F S32x512 .f32) : Vec F S32x512 .f32 :=
  VS0.read (Elt F) (VS0.writes (Elt F) VS0.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0).2.1)

/-- Where the gate is not stored nothing consults the output window's contents: a placeholder. -/
def outIdle : Vec F S32x512 .f32 := VO0_9.read (Elt F) (VO0_9.writes (Elt F) VO0_9.junk [])

/-! ## The conditions at a point, from the point's number -/

theorem cA0 (t : Fin cfg0.N) (h : t.val % 8 = 0) : cond0_0 (grid0.coords t) := (hcond0_0 t).mpr h
theorem cA1 (t : Fin cfg0.N) (h : t.val % 8 = 0) : ¬cond0_1 (grid0.coords t) := fun h' => by have := (hcond0_1 t).mp h'; omega
theorem cB0 (t : Fin cfg0.N) (h : ¬t.val % 8 = 0) : ¬cond0_0 (grid0.coords t) := fun h' => h ((hcond0_0 t).mp h')
theorem cB1 (t : Fin cfg0.N) (h : ¬t.val % 8 = 7) : ¬cond0_1 (grid0.coords t) := fun h' => h ((hcond0_1 t).mp h')
theorem cC1 (t : Fin cfg0.N) (h : t.val % 8 = 7) : cond0_1 (grid0.coords t) := (hcond0_1 t).mpr h
theorem succ_mod_ne (n : ℕ) (hn : n + 1 < cfg0.N) : ¬(n + 1) % 8 = 0 := by
  have hN : n + 1 < 8 := lt_of_lt_of_eq hn (show cfg0.N = 8 from N_0); omega

/-! ## The accumulation over the points -/

/-- What the output window's staging buffer and the accumulator hold after the body at position n. -/
def outsAt0 (c : Dev nD) : (n : ℕ) → n < cfg0.N → Vec F S32x512 .f32 × Vec F S32x512 .f32
  | 0, hn => (outIdle, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0 (Memref.isWhole_whole _) (cA0 ⟨0, hn⟩ (Nat.zero_mod _)) (cA1 ⟨0, hn⟩ (Nat.zero_mod _)) (iblk0 V c 0 ⟨0, hn⟩))
  | n + 1, hn =>
    if h1 : (n + 1) % 8 = 7 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) (cB0 ⟨n + 1, hn⟩ (succ_mod_ne n hn)) (cC1 ⟨n + 1, hn⟩ h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) (cB0 ⟨n + 1, hn⟩ (succ_mod_ne n hn)) (cC1 ⟨n + 1, hn⟩ h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (outsAt0 c n (Nat.lt_of_succ_lt hn)).2)
    else
      (outIdle, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0 (Memref.isWhole_whole _) (cB0 ⟨n + 1, hn⟩ (succ_mod_ne n hn)) (cB1 ⟨n + 1, hn⟩ h1) (iblk0 V c 0 ⟨n + 1, hn⟩) (outsAt0 c n (Nat.lt_of_succ_lt hn)).2)

theorem outsAt0_A (c : Dev nD) (t : Fin cfg0.N) (h0 : t.val % 8 = 0) :
    outsAt0 V c t.val t.isLt = (outIdle, sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (cA0 t h0) (cA1 t h0) (iblk0 V c 0 t)) := by
  obtain ⟨n, hn⟩ := t
  cases n with
  | zero => exact rfl
  | succ n => exact absurd h0 (succ_mod_ne n hn)

theorem outsAt0_B (c : Dev nD) (t : Fin cfg0.N) (h0 : ¬t.val % 8 = 0) (h1 : ¬t.val % 8 = 7) :
    outsAt0 V c t.val t.isLt = (outIdle, sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (cB0 t h0) (cB1 t h1) (iblk0 V c 0 t) (outsAt0 V c (t.val - 1) (Nat.lt_of_le_of_lt (Nat.sub_le _ _) t.isLt)).2) := by
  obtain ⟨n, hn⟩ := t
  cases n with
  | zero => exact absurd (Nat.zero_mod _) h0
  | succ n => exact (dif_neg h1).trans rfl

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (cB0 t h0) (cC1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0 (Memref.isWhole_whole _) (cB0 t h0) (cC1 t h1) (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)).2) := by
  obtain ⟨n, hn⟩ := t
  cases n with
  | zero => exact absurd (Nat.zero_mod _) h0
  | succ n => exact (dif_pos h1).trans rfl

/-! ## The invariant between points -/

/-- The core's scoped buffers that are neither this region's staging buffers nor the accumulator: the second
    region's staging buffers, each whole at some contents. -/
def restOther (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The resting invariant with the accumulator named. -/
theorem PhiA0_eq (c : Dev nD) :
    (Pipeline.ΦA spec0 c : sProp 𝕄)
      = iprop(iprop((∃ d, owns (c : Thread nD τ) scM0 fullShare d) ∗ restOther c) ∗ (∃ r, prngReg c r)) := by
  unfold Pipeline.ΦA restOther; rw [scopedRest0_eq]; simp only [scM0, owns_whole]; try rfl

/-- Before the first point the resting invariant; afterwards the accumulator at what the point before left. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ restOther c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ restOther c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ restOther c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  rw [show (dat0 V c).leavesExact 0 t = owns (c : Thread nD τ) (ms0_0 t) fullShare ((dat0 V c).after 0 t) from by unfold Dat.leavesExact; rw [liveAt0_in 0 (by decide) t], after0_0]
  rw [show (dat0 V c).leavesExact 1 t = owns (c : Thread nD τ) (ms0_1 t) fullShare ((dat0 V c).after 1 t) from by unfold Dat.leavesExact; rw [liveAt0_in 1 (by decide) t], after0_1]
  rw [show (dat0 V c).leavesExact 2 t = owns (c : Thread nD τ) (ms0_2 t) fullShare ((dat0 V c).after 2 t) from by unfold Dat.leavesExact; rw [liveAt0_in 2 (by decide) t], after0_2]
  rw [show (dat0 V c).leavesExact 3 t = owns (c : Thread nD τ) (ms0_3 t) fullShare ((dat0 V c).after 3 t) from by unfold Dat.leavesExact; rw [liveAt0_in 3 (by decide) t], after0_3]
  rw [show (dat0 V c).leavesExact 4 t = owns (c : Thread nD τ) (ms0_4 t) fullShare ((dat0 V c).after 4 t) from by unfold Dat.leavesExact; rw [liveAt0_in 4 (by decide) t], after0_4]
  rw [show (dat0 V c).leavesExact 5 t = owns (c : Thread nD τ) (ms0_5 t) fullShare ((dat0 V c).after 5 t) from by unfold Dat.leavesExact; rw [liveAt0_in 5 (by decide) t], after0_5]
  rw [show (dat0 V c).leavesExact 6 t = owns (c : Thread nD τ) (ms0_6 t) fullShare ((dat0 V c).after 6 t) from by unfold Dat.leavesExact; rw [liveAt0_in 6 (by decide) t], after0_6]
  rw [show (dat0 V c).leavesExact 7 t = owns (c : Thread nD τ) (ms0_7 t) fullShare ((dat0 V c).after 7 t) from by unfold Dat.leavesExact; rw [liveAt0_in 7 (by decide) t], after0_7]
  rw [show (dat0 V c).leavesExact 8 t = owns (c : Thread nD τ) (ms0_8 t) fullShare ((dat0 V c).after 8 t) from by unfold Dat.leavesExact; rw [liveAt0_in 8 (by decide) t], after0_8]
  by_cases h0 : t.val % 8 = 0
  · have hz : t.val = 0 := by omega
    rw [Dat.leavesExact_idle (dat0 V c) 9 t (idleAt0_9 t (cA1 t h0)) (noFlush0_9 t (cA1 t h0))]
    rw [outsAt0_A V c t h0]
    unfold sout0_A; (try dsimp only)
    rw [PhiS_castSucc V c t, PhiS_zero V c _ _ hz, PhiA0_eq]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ (cA0 t h0) (cA1 t h0) (iblk0 V c 0 t)).2 Set.univ _)
    isplitl [H0]; · iexact H0
    isplitl [HS0]; · iexact HS0
    iintro ⟨H0, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A c _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · have hz : t.val ≠ 0 := by omega
    by_cases h1 : t.val % 8 = 7
    · rw [show (dat0 V c).leavesExact 9 t = owns (c : Thread nD τ) (ms0_9 t) fullShare ((dat0 V c).after 9 t) from by unfold Dat.leavesExact; rw [liveAt0_9 t (cC1 t h1)], after0_9]
      rw [outsAt0_C V c t h0 h1]
      unfold out0_C sout0_C; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) _ _ _ _ _ _ _ _ _ _ _ _ _ _ _ _ _ _ _ _ _ _ (cB0 t h0) (cC1 t h1) (iblk0 V c 0 t) (iblk0 V c 1 t) (iblk0 V c 2 t) (iblk0 V c 3 t) (iblk0 V c 4 t) (iblk0 V c 5 t) (iblk0 V c 6 t) (iblk0 V c 7 t) (iblk0 V c 8 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      iintro ⟨H0, H1, H2, H3, H4, H5, H6, H7, H8, ⟨%e9, H9⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_C c _ _ _ _ _ _ _ _ _ _ _ _ _ _ _ _ _ _ _ _ _ _ _ _ _ _ _ _ _ _ _ _ _ _ _)
    · rw [Dat.leavesExact_idle (dat0 V c) 9 t (idleAt0_9 t (cB1 t h1)) (noFlush0_9 t (cB1 t h1))]
      rw [outsAt0_B V c t h0 h1]
      unfold sout0_B; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ (cB0 t h0) (cB1 t h1) (iblk0 V c 0 t) _).2 Set.univ _)
      isplitl [H0]; · iexact H0
      isplitl [HS0]; · iexact HS0
      iintro ⟨H0, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the resting one back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 8 := N_0; omega), PhiA0_eq]
  iintro ⟨⟨HS0, Hrest⟩, Hg⟩
  isplitl [HS0 Hrest]
  · isplitl [HS0]
    · iexists _; iexact HS0
    iexact Hrest
  iexact Hg

end Cert.ReferenceIdeal.Hand

end
-- ==== Proof.R1Frame.lean ====
/-
  The second region of the reference: the pallas_call that multiplies the reshaped input by the gate, a grid of
  1 × 8 points over eight 128-lane tiles; its body loads the whole gate [32, 512] and the input tile [32, 512, 128]
  and stores their product (the gate spread along the lanes) over the whole output tile. Stated at a parameter V,
  the buffer contents the region is entered with: each window's block at a point, what the body leaves in the
  output's staging buffer as a function of the two input blocks, the body's triple by symbolic execution, the
  pipeline's proof data (nothing carried between points) and its obligation at every point.
-/
import proofs.«131134_g2000205275311698_pallasbulk_34_2_alg».proof.Proof.Gen.ReferenceIdeal.Launch
import proofs.«131134_g2000205275311698_pallasbulk_34_2_alg».proof.Proof.Gen.ReferenceIdeal.Skeleton
import proofs.«131134_g2000205275311698_pallasbulk_34_2_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole input tile and the whole gate, as the body's loads and its store address them. -/
abbrev r1_x : Rect S32x512x128 := Rect.unit (s := S32x512x128) ![0, 0, 0] S32x512x128.size inb_S32x512x128_S32x512x128_0_0_0
abbrev r1_g : Rect S32x512 := Rect.unit (s := S32x512) ![0, 0] S32x512.size inb_S32x512_S32x512_0_0

/-- The output tile after the body: the product of the input tile and the gate, stored whole. -/
def out1_2 (x0 : Vec F S32x512x128 .f32) (x1 : Vec F S32x512 .f32) : Vec F S32x512x128 .f32 :=
  View.canon [⟨r1_x, k1_pay1 (View.ld x1 r1_g) (View.ld x0 r1_x)⟩]

theorem cover1_2 (p0 : Vec F S32x512x128 .f32) (y : S32x512x128.Idx) :
    ∃ pc ∈ ([⟨r1_x, p0⟩] : List (View.Piece (Elt F) S32x512x128 .f32)), y ∈ pc.1.set :=
  View.cover_of_tiled [⟨r1_x, p0⟩] S32x512x128.size (by rfl) y

set_option maxHeartbeats 1000000 in
theorem sound_kernel1 (c : Dev nD) (E : Set ℕ) (i : grid1.Coords) (arg2 : Memref sig .tc .vmem S32x512x128 .f32) (harg2 : arg2.IsWhole) (arg3 : Memref sig .tc .vmem S32x512 .f32) (harg3 : arg3.IsWhole) (arg4 : Memref sig .tc .vmem S32x512x128 .f32) (harg4 : arg4.IsWhole)
    (x0 : Vec F S32x512x128 .f32) (x1 : Vec F S32x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__apply_gate_kernel i arg2 harg2 arg3 harg3 arg4 harg4) K := by
  simp only [cc1__apply_gate_kernel_eq_skeleton]; unfold cc1__apply_gate_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _)

/-- The proof data of the multiply's pipeline on core c: the arrays as the region finds them; after the body each
    input's buffer at its block and the output's at the product of the two input blocks; nothing carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.ReferenceIdeal.Hand

end
-- ==== Proof.RefRun.lean ====
/-
  The reference's run, assembled: @main is a host stretch (the reshape of the input and the three weight
  transposes), the gate's region, a host stretch (the gate reshaped to [32, 512, 1, 1] and back, the input reshaped
  again), the multiply's region, and the final reshape. The buffer contents at each boundary are a fold from the
  launch memory: a host stretch applies its operations; a region leaves its input arrays as entered and its output
  array at what its write-backs fold to. Each region enters from every unscoped buffer held at the boundary's
  contents and leaves them held at the next boundary's; the first region's invariant names the accumulator between
  points and forgets it at the end. The run's post: every unscoped buffer ends at the last boundary's contents.
-/
import proofs.«131134_g2000205275311698_pallasbulk_34_2_alg».proof.Proof.R0Frame
import proofs.«131134_g2000205275311698_pallasbulk_34_2_alg».proof.Proof.R1Frame
import proofs.«131134_g2000205275311698_pallasbulk_34_2_alg».proof.Proof.Gen.ReferenceIdeal.Regions
import Idealize.ShloMosaic.Lib.Pipeline.RegionsLoop
import Idealize.ShloMosaic.Lib.Pipeline.FrameSuffix

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the gate's region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the multiply's region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the final reshape. -/
abbrev W5 : Dev nD → Valuation τ sig (Elt F) := fun c => StableHlo.after hostOps2 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (r := main_arg2) (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_writes_sub hostOps0 _ hostOps0_writes (r := main_arg3) (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_writes_sub hostOps0 _ hostOps0_writes (r := main_arg5) (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_writes_sub hostOps0 _ hostOps0_writes (r := main_arg6) (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (r := main_arg7) (by decide)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (r := main_arg8) (by decide)
    _ = W3 m ρ c (Proc.devRef .tc main_arg8) := W4_of_ne m ρ c main_arg8 (by decide)
    _ = W2 m ρ c (Proc.devRef .tc main_arg8) := StableHlo.after_of_writes_sub hostOps1 _ hostOps1_writes (r := main_arg8) (by decide)
    _ = W1 m ρ c (Proc.devRef .tc main_arg8) := (W2_arr m ρ c 8).trans (((dat0 (V1 m ρ) c).arrAt_in 8 rfl _).trans (A_eq0 (V1 m ρ) c 8))
    _ = W0 m ρ c (Proc.devRef .tc main_arg8) := StableHlo.after_of_writes_sub hostOps0 _ hostOps0_writes (r := main_arg8) (by decide)
    _ = m ((c : Thread nD τ).loc main_arg8) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

/-- After the last point the first region's invariant gives back the scoped rest and the generator register. -/
theorem hout0' (V : (c : Dev nD) → (b : Ref sig .tc) → Buf (Elt F) ((c : Thread nD τ).loc b)) (c : Dev nD) :
    (dat0 V c).Φ (Fin.last cfg0.N) ⊢ (iprop(Pipeline.scopedRest spec0 c ∗ ∃ r, prngReg c r) : sProp 𝕄) := by
  have h := hout0 V c
  unfold Pipeline.ΦA at h
  exact h

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    have hgive := hout0' (V1 m ρ) c
    rw [Pipeline.ownSems0_none, show (pdats m ρ 0 c).Φ (Fin.last _) = (dat0 (V1 m ρ) c).Φ (Fin.last cfg0.N) from rfl]
    iintro H
    ihave H' := hgive $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of @main terminates, nothing faulting, and every unscoped buffer ends holding the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W5 m ρ c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.ReferenceIdeal.Hand

end
-- ==== Proof.R0Value.lean ====
/-
  What the gate kernel's three control cases leave, as terms of the body's named values: tile 0 leaves in the
  accumulator the tile's lane sums added to the zero splat; every later tile leaves its lane sums added to what
  the tile before left; tile 7 moreover leaves in the output window the gate computed from that total and the
  three dense layers' arrays. (Every store of this body covers its whole buffer, so a buffer's final contents are
  its last store's value, and a load after a store reads that store's value.) Then the accumulator after each tile
  as a recursion over the tiles, and the output window after tile 7.
-/
import proofs.«131134_g2000205275311698_pallasbulk_34_2_alg».proof.Proof.R0Frame
import Idealize.ShloMosaic.Lib.Pipeline.Value

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile adds its lane sums onto what the accumulator held. -/
theorem soutB_eq (c : Dev nD) (i : grid0.Coords) (arg2 : Memref sig .tc .vmem S32x512x128 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x512 .f32) (harg11 : arg11.IsWhole) (arg12 : Memref sig .tc .vmem S32x512 .f32) (harg12 : arg12.IsWhole) (hc0 : ¬cond0_0 i) (hc1 : ¬cond0_1 i)
    (x0 : Vec F S32x512x128 .f32) (xs0 : Vec F S32x512 .f32) :
    sout0_B c i arg2 harg2 arg3 harg3 arg4 harg4 arg5 harg5 arg6 harg6 arg7 harg7 arg8 harg8 arg9 harg9 arg10 harg10 arg11 harg11 arg12 harg12 hc0 hc1 x0 xs0 = k0_pay2 x0 xs0 := by
  unfold sout0_B
  rw [View.read_writes_eq_canon _ _ _ (scover0_B c i arg2 harg2 arg3 harg3 arg4 harg4 arg5 harg5 arg6 harg6 arg7 harg7 arg8 harg8 arg9 harg9 arg10 harg10 arg11 harg11 arg12 harg12 hc0 hc1 x0 xs0)]
  unfold kernelRun0_B
  dsimp only
  try sl_unfold_words
  rw [View.canon_unit_zero hz2]
  simp only [View.readAt_eq_ld, harg2.read_unread, harg12.read_unread, View.ld_unit_zero (S := S32x512x128) hz3, View.ld_unit_zero (S := S32x512) hz2]

/-- Tile 0 adds its lane sums onto the zero splat it has just stored. -/
theorem soutA_eq (c : Dev nD) (i : grid0.Coords) (arg2 : Memref sig .tc .vmem S32x512x128 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x512 .f32) (harg11 : arg11.IsWhole) (arg12 : Memref sig .tc .vmem S32x512 .f32) (harg12 : arg12.IsWhole) (hc0 : cond0_0 i) (hc1 : ¬cond0_1 i)
    (x0 : Vec F S32x512x128 .f32) :
    sout0_A c i arg2 harg2 arg3 harg3 arg4 harg4 arg5 harg5 arg6 harg6 arg7 harg7 arg8 harg8 arg9 harg9 arg10 harg10 arg11 harg11 arg12 harg12 hc0 hc1 x0 = k0_pay2 x0 (k0_pay1 (F := F)) := by
  unfold sout0_A
  rw [View.read_writes_eq_canon _ _ _ (scover0_A c i arg2 harg2 arg3 harg3 arg4 harg4 arg5 harg5 arg6 harg6 arg7 harg7 arg8 harg8 arg9 harg9 arg10 harg10 arg11 harg11 arg12 harg12 hc0 hc1 x0)]
  unfold kernelRun0_A
  dsimp only
  try sl_unfold_words
  rw [View.canon_cons_unit_zero hz2, View.readCov_unit_zero (S := S32x512) _ hz2]
  simp only [View.readAt_eq_ld, harg2.read_unread, View.ld_unit_zero (S := S32x512x128) hz3]

/-- Tile 7 adds its lane sums onto what the accumulator held, -/
theorem soutC_eq (c : Dev nD) (i : grid0.Coords) (arg2 : Memref sig .tc .vmem S32x512x128 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x512 .f32) (harg11 : arg11.IsWhole) (arg12 : Memref sig .tc .vmem S32x512 .f32) (harg12 : arg12.IsWhole) (hc0 : ¬cond0_0 i) (hc1 : cond0_1 i)
    (x0 : Vec F S32x512x128 .f32) (x1 : Vec F S512x512 .f32) (x2 : Vec F S1x512 .f32) (x3 : Vec F S1x512 .f32) (x4 : Vec F S512x512 .f32) (x5 : Vec F S1x512 .f32) (x6 : Vec F S1x512 .f32) (x7 : Vec F S512x512 .f32) (x8 : Vec F S1x512 .f32) (xs0 : Vec F S32x512 .f32) :
    sout0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay2 x0 xs0 := by
  unfold sout0_C
  rw [View.read_writes_eq_canon _ _ _ (scover0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  try sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S32x512x128) hz3, View.ld_unit_zero (S := S32x512) hz2, View.ld_unit_zero (S := S512x512) hz2, View.ld_unit_zero (S := S1x512) hz2]

/-- and stores the gate computed from that total. -/
theorem outC_eq (c : Dev nD) (i : grid0.Coords) (arg2 : Memref sig .tc .vmem S32x512x128 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S32x512 .f32) (harg11 : arg11.IsWhole) (arg12 : Memref sig .tc .vmem S32x512 .f32) (harg12 : arg12.IsWhole) (hc0 : ¬cond0_0 i) (hc1 : cond0_1 i)
    (x0 : Vec F S32x512x128 .f32) (x1 : Vec F S512x512 .f32) (x2 : Vec F S1x512 .f32) (x3 : Vec F S1x512 .f32) (x4 : Vec F S512x512 .f32) (x5 : Vec F S1x512 .f32) (x6 : Vec F S1x512 .f32) (x7 : Vec F S512x512 .f32) (x8 : Vec F S1x512 .f32) (xs0 : Vec F S32x512 .f32) :
    out0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay3 (k0_pay2 x0 xs0) x1 x2 x3 x4 x5 x6 x7 x8 := by
  unfold out0_C
  rw [View.read_writes_eq_canon _ _ _ (cover0_C c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  try sl_unfold_words
  rw [View.canon_unit_zero hz2, View.readCov_unit_zero (S := S32x512) _ hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S32x512x128) hz3, View.ld_unit_zero (S := S32x512) hz2, View.ld_unit_zero (S := S512x512) hz2, View.ld_unit_zero (S := S1x512) hz2]

variable (V : (c : Dev nD) → (b : Ref sig .tc) → Buf (Elt F) ((c : Thread nD τ).loc b))

/-- The accumulator after tile n: tile 0's lane sums on the zero splat, every later tile's on the one before. -/
def accV (c : Dev nD) : (n : ℕ) → n < cfg0.N → Vec F S32x512 .f32
  | 0, hn => k0_pay2 (iblk0 V c 0 ⟨0, hn⟩) (k0_pay1 (F := F))
  | n + 1, hn => k0_pay2 (iblk0 V c 0 ⟨n + 1, hn⟩) (accV c n (Nat.lt_of_succ_lt hn))

theorem outsAt0_snd (c : Dev nD) : ∀ (n : ℕ) (hn : n < cfg0.N), (outsAt0 V c n hn).2 = accV V c n hn
  | 0, hn => by
    rw [show outsAt0 V c 0 hn = outsAt0 V c (⟨0, hn⟩ : Fin cfg0.N).val (⟨0, hn⟩ : Fin cfg0.N).isLt from rfl,
      outsAt0_A V c ⟨0, hn⟩ (Nat.zero_mod _)]
    dsimp only
    rw [soutA_eq]
    rfl
  | n + 1, hn => by
    have ih := outsAt0_snd c n (Nat.lt_of_succ_lt hn)
    by_cases h1 : (n + 1) % 8 = 7
    · rw [show outsAt0 V c (n + 1) hn = outsAt0 V c (⟨n + 1, hn⟩ : Fin cfg0.N).val (⟨n + 1, hn⟩ : Fin cfg0.N).isLt from rfl,
        outsAt0_C V c ⟨n + 1, hn⟩ (succ_mod_ne n hn) h1]
      dsimp only
      rw [soutC_eq]
      show k0_pay2 _ (outsAt0 V c n _).2 = k0_pay2 _ (accV V c n _)
      rw [ih]
    · rw [show outsAt0 V c (n + 1) hn = outsAt0 V c (⟨n + 1, hn⟩ : Fin cfg0.N).val (⟨n + 1, hn⟩ : Fin cfg0.N).isLt from rfl,
        outsAt0_B V c ⟨n + 1, hn⟩ (succ_mod_ne n hn) h1]
      dsimp only
      rw [soutB_eq]
      show k0_pay2 _ (outsAt0 V c n _).2 = k0_pay2 _ (accV V c n _)
      rw [ih]

/-- The output window after tile 7: the gate of the accumulated total and the dense layers' blocks. -/
theorem out_at7 (c : Dev nD) :
    (outsAt0 V c t0_7.val t0_7.isLt).1
      = k0_pay3 (accV V c 7 t0_7.isLt) (iblk0 V c 1 t0_7) (iblk0 V c 2 t0_7) (iblk0 V c 3 t0_7) (iblk0 V c 4 t0_7)
          (iblk0 V c 5 t0_7) (iblk0 V c 6 t0_7) (iblk0 V c 7 t0_7) (iblk0 V c 8 t0_7) := by
  rw [outsAt0_C V c t0_7 (by decide) (by decide)]
  dsimp only
  rw [outC_eq]
  have e : k0_pay2 (iblk0 V c 0 t0_7) (outsAt0 V c (t0_7.val - 1) (Nat.lt_of_le_of_lt (Nat.sub_le _ _) t0_7.isLt)).2 = accV V c 7 t0_7.isLt := by
    rw [outsAt0_snd V c]; rfl
  rw [e]

end Cert.ReferenceIdeal.Hand

end
-- ==== Proof.RefPayload.lean ====
/-
  The reference's block values read index by index on the extended reals.

  The first program keeps a 32 × 512 block of running lane sums: it is set to zero, then at each of the eight lane
  tiles the sum over the tile's 128 lanes is added to it, and at the last tile the gate of every row is computed from
  it. The second program multiplies each entry of a 32 × 512 × 128 tile by the gate of its row and channel.
  Each lemma reads one of these block values at an index:
  • pay1_apply: the initial block is the zero word everywhere;
  • pay2_apply: one accumulation step adds, at (b, c), the sum over the 128 lanes of the tile;
  • pay3_apply: the gate block at (b, j) is SE.gateOf of row b of the accumulated sums;
  • pay_mul_apply: the product block at (b, c, l) is x(b, c, l) · g(b, c).
-/
import proofs.«131134_g2000205275311698_pallasbulk_34_2_alg».proof.Proof.Gen.ReferenceIdeal.Skeleton
import proofs.«131134_g2000205275311698_pallasbulk_34_2_alg».proof.Proof.Spec
import proofs.«131134_g2000205275311698_pallasbulk_34_2_alg».proof.Proof.LibGateRows

noncomputable section

namespace Cert.ReferenceIdeal.RPay

open Idealize.ShloMosaic Idealize.ShloMosaic.ValueIdx
open Cert.ReferenceIdeal Cert.ReferenceIdeal.Gen

/-- The initial block is the zero word at every index. -/
theorem pay1_apply (b : Fin 32) (c : Fin 512) : k0_pay1 (F := Ideal) (ix2 b c) = SE.zeroW := by
  unfold k0_pay1
  rw [shapeCast_self]
  rfl

/-- The sum over the lane axis of a 32 × 512 × 128 tile, at (b, c): ∑ₗ x(b, c, l). -/
theorem laneSum_apply (x : FVec Ideal S32x512x128 .f32) (h : S32x512x128.Reduces [2] S32x512) (hφ : FKind.Formats .f32)
    (hacc : (0x00000000#32 : BitVec 32) = 0x00000000#32) (b : Fin 32) (c : Fin 512) :
    multiReduction (F := Ideal) .add [2] S32x512 x 0x00000000#32 h hφ hacc (ix2 b c) = ∑ l : Fin 128, x (ix3 b c l) := by
  refine (Ideal.multiReduction_add_single x 0x00000000#32 h hφ hacc (ix2 b c)).trans ?_
  refine Finset.sum_congr rfl fun l _ => congrArg x ?_
  funext a
  refine Fin.ext ?_
  match a with
  | ⟨0, _⟩ => rfl
  | ⟨1, _⟩ => rfl
  | ⟨2, _⟩ => rfl

/-- One accumulation step: at (b, c) the old total plus the sum over the tile's 128 lanes. -/
theorem pay2_apply (x : Vec Ideal S32x512x128 .f32) (acc : Vec Ideal S32x512 .f32) (b : Fin 32) (c : Fin 512) :
    k0_pay2 (F := Ideal) x acc (ix2 b c) = acc (ix2 b c) + ∑ l : Fin 128, x (ix3 b c l) := by
  unfold k0_pay2
  rw [shapeCast_self, shapeCast_self, addf_apply]
  exact congrArg (acc (ix2 b c) + ·) (laneSum_apply x _ _ _ b c)

/-- The reference's dimension numbers are those of "rows times matrix". -/
theorem dot_isRowsByMatrix : SE.Rows.IsRowsByMatrix (n := 32) dot_S32x512_S512x512_S32x512_1_0_0_1_n_n :=
  ⟨rfl, rfl, rfl, rfl, rfl, rfl⟩

/-- The gate block is the block expression of the general file. -/
theorem pay3_eq (acc : Vec Ideal S32x512 .f32) (w1 : Vec Ideal S512x512 .f32) (b1 a1 : Vec Ideal S1x512 .f32)
    (w2 : Vec Ideal S512x512 .f32) (b2 a2 : Vec Ideal S1x512 .f32) (w3 : Vec Ideal S512x512 .f32) (b3 : Vec Ideal S1x512 .f32) :
    k0_pay3 (F := Ideal) acc w1 b1 a1 w2 b2 a2 w3 b3
      = SE.Rows.gateVec (n := 32) dot_S32x512_S512x512_S32x512_1_0_0_1_n_n broadcasts_S1x512_S32x512
          shapeCasts_S512x512_S512x512 acc w1 b1 a1 w2 b2 a2 w3 b3 := rfl

/-- The gate block at (b, j) is the gate of row b of the accumulated sums. -/
theorem pay3_apply (acc : Vec Ideal S32x512 .f32) (w1 : Vec Ideal S512x512 .f32) (b1 a1 : Vec Ideal S1x512 .f32)
    (w2 : Vec Ideal S512x512 .f32) (b2 a2 : Vec Ideal S1x512 .f32) (w3 : Vec Ideal S512x512 .f32) (b3 : Vec Ideal S1x512 .f32)
    (b : Fin 32) (j : Fin 512) :
    k0_pay3 (F := Ideal) acc w1 b1 a1 w2 b2 a2 w3 b3 (ix2 b j)
      = SE.gateOf (fun k => acc (ix2 b k)) w1 b1 a1 w2 b2 a2 w3 b3 j := by
  rw [pay3_eq]
  exact SE.Rows.gateVec_apply _ dot_isRowsByMatrix _ _ acc w1 b1 a1 w2 b2 a2 w3 b3 b j

/-- A 32 × 512 block viewed as 32 × 512 × 1 reads, at (b, c, u), the block at (b, c). -/
theorem shapeCast_ab_ab1_apply (g : Vec Ideal S32x512 .f32) (h : S32x512.ShapeCasts S32x512x1) (b : Fin 32) (c : Fin 512) (u : Fin 1) :
    shapeCast S32x512x1 g h (ix3 b c u) = g (ix2 b c) :=
  shapeCast_apply g h _ _ (by
    have hu : u.val = 0 := by omega
    rw [Shape.rowMajor_val_three, Shape.rowMajor_val_two]
    show b.val * 512 + c.val = (b.val * 512 + c.val) * 1 + u.val
    rw [hu, Nat.mul_one, Nat.add_zero])

/-- A 32 × 512 × 1 block repeated along 128 lanes reads, at (b, c, l), the block at (b, c, 0). -/
theorem broadcastTo_ab1_abl_apply (v : Vec Ideal S32x512x1 .f32) (h : S32x512x1.Broadcasts S32x512x128)
    (b : Fin 32) (c : Fin 512) (l : Fin 128) :
    broadcastTo S32x512x128 v h (ix3 b c l) = v (ix3 b c (0 : Fin 1)) := by
  refine broadcastTo_apply v h (ix3 b c l) (ix3 b c (0 : Fin 1)) fun ax => ?_
  match ax with
  | ⟨0, _⟩ => rfl
  | ⟨1, _⟩ => rfl
  | ⟨2, _⟩ => rfl

/-- The product block at (b, c, l) is the input there times the gate of (b, c). -/
theorem pay_mul_apply (g : Vec Ideal S32x512 .f32) (x : Vec Ideal S32x512x128 .f32) (b : Fin 32) (c : Fin 512) (l : Fin 128) :
    k1_pay1 (F := Ideal) g x (ix3 b c l) = x (ix3 b c l) * g (ix2 b c) := by
  unfold k1_pay1
  rw [shapeCast_self, shapeCast_self, mulf_apply, broadcastTo_ab1_abl_apply, shapeCast_ab_ab1_apply]

end Cert.ReferenceIdeal.RPay

end
-- ==== Proof.LibSumBlocks.lean ====
/-
  Sums cut into blocks, and running totals.

  • sum_fin_mul, sum_1024_blocks: a sum over m · n consecutive positions is the sum over the m blocks of the sum over
    each block's n positions; for 1024 = 8 · 128 the position of (k, j) is 128 · k + j.
  • foldl_add_range, running_total: a total built up one term at a time from zero, A₀ = 0 + S₀ and
    Aₖ₊₁ = Aₖ + Sₖ₊₁, is after step n the sum S₀ + … + Sₙ. Only a commutative additive monoid is used, so the
    statements hold on the extended reals with no finiteness assumption.
  • zeroW_eq_zero: the zero word denotes the extended real 0.
-/
import proofs.«131134_g2000205275311698_pallasbulk_34_2_alg».proof.Proof.Spec
import Idealize.ShloMosaic.PureOps.Ideal.Laws

noncomputable section

namespace SE.Sums

open Idealize.ShloMosaic

/-! ## A sum over m · n positions, block by block -/

/-- A sum over m · n positions is the double sum over (block, position in the block). -/
theorem sum_fin_mul {M : Type*} [AddCommMonoid M] (m n : ℕ) (f : Fin (m * n) → M) :
    ∑ l, f l = ∑ k : Fin m, ∑ j : Fin n, f (finProdFinEquiv (k, j)) := by
  rw [← Equiv.sum_comp finProdFinEquiv f, Fintype.sum_prod_type]

/-- 1024 positions as 8 blocks of 128: position 128 · k + j is the j-th of block k. -/
theorem sum_1024_blocks {M : Type*} [AddCommMonoid M] (f : Fin 1024 → M) :
    ∑ l : Fin 1024, f l = ∑ k : Fin 8, ∑ j : Fin 128, f ⟨128 * k.val + j.val, by omega⟩ := by
  refine (sum_fin_mul 8 128 f).trans ?_
  refine Finset.sum_congr rfl fun k _ => Finset.sum_congr rfl fun j _ => congrArg f (Fin.ext ?_)
  show j.val + 128 * k.val = 128 * k.val + j.val
  omega

/-! ## Running totals -/

/-- Adding the terms S₀, …, Sₙ₋₁ one at a time onto z gives z plus their sum. -/
theorem foldl_add_range_from {M : Type*} [AddCommMonoid M] (S : ℕ → M) (z : M) (n : ℕ) :
    (List.range n).foldl (fun a k => a + S k) z = z + ∑ k ∈ Finset.range n, S k := by
  induction n with
  | zero => simp
  | succ n ih =>
    rw [List.range_succ, List.foldl_append, ih, Finset.sum_range_succ, ← add_assoc]
    rfl

/-- From zero: the fold over 0, …, n is the sum S₀ + … + Sₙ. -/
theorem foldl_add_range {M : Type*} [AddCommMonoid M] (S : ℕ → M) (z : M) (hz : z = 0) (n : ℕ) :
    (List.range (n + 1)).foldl (fun a k => a + S k) z = ∑ k ∈ Finset.range (n + 1), S k := by
  rw [foldl_add_range_from, hz, zero_add]

/-- The same as a recursion that is only known up to step N: if A₀ = z + S₀ with z = 0 and Aₖ₊₁ = Aₖ + Sₖ₊₁ for
    every k < N, then Aₙ = S₀ + … + Sₙ for every n ≤ N. -/
theorem running_total_upto {M : Type*} [AddCommMonoid M] (A S : ℕ → M) (z : M) (hz : z = 0) (N : ℕ)
    (h0 : A 0 = z + S 0) (hs : ∀ k, k < N → A (k + 1) = A k + S (k + 1)) :
    ∀ n, n ≤ N → A n = ∑ k ∈ Finset.range (n + 1), S k := by
  intro n
  induction n with
  | zero => intro _; rw [h0, hz, zero_add, Finset.sum_range_one]
  | succ n ih =>
    intro hn
    rw [hs n (by omega), ih (by omega), ← Finset.sum_range_succ]

/-- The recursion known at every step. -/
theorem running_total {M : Type*} [AddCommMonoid M] (A S : ℕ → M) (z : M) (hz : z = 0)
    (h0 : A 0 = z + S 0) (hs : ∀ k, A (k + 1) = A k + S (k + 1)) (n : ℕ) :
    A n = ∑ k ∈ Finset.range (n + 1), S k :=
  running_total_upto A S z hz n h0 (fun k _ => hs k) n le_rfl

/-! ## The zero word -/

/-- The zero word denotes 0. -/
theorem zeroW_eq_zero : SE.zeroW = 0 := by
  unfold SE.zeroW
  exact Ideal.ofBits_zero_f32

/-- The running total on the extended reals, started from the zero word. -/
theorem running_total_zeroW (A S : ℕ → EReal) (N : ℕ) (h0 : A 0 = SE.zeroW + S 0)
    (hs : ∀ k, k < N → A (k + 1) = A k + S (k + 1)) :
    ∀ n, n ≤ N → A n = ∑ k ∈ Finset.range (n + 1), S k :=
  running_total_upto A S SE.zeroW zeroW_eq_zero N h0 hs

end SE.Sums

end
-- ==== Proof.R0Final.lean ====
/-
  The gate array the first region leaves. The input window's block at lane tile k is lanes 128·k … 128·k + 127 of
  the reshaped input; the other windows' blocks are their whole arrays. So the accumulator after tile 7 holds, at
  (b, c), the zero word plus the eight tiles' lane sums in order, which is the sum over all 1024 lanes (addition of
  extended reals is commutative and associative; no finiteness is needed); the output window after tile 7 holds the
  gate of those sums; and the one write-back, at tile 7, writes the whole [32, 512] array.
-/
import proofs.«131134_g2000205275311698_pallasbulk_34_2_alg».proof.Proof.R0Value
import proofs.«131134_g2000205275311698_pallasbulk_34_2_alg».proof.Proof.RefPayload
import proofs.«131134_g2000205275311698_pallasbulk_34_2_alg».proof.Proof.LibSumBlocks
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b))

/-! ## The windows' blocks as parts of their arrays -/

theorem idx0_0 : ∀ t : Fin grid0.N, win0_0.index t 0 = 0 ∧ win0_0.index t 1 = 0 ∧ win0_0.index t 2 = t.val := by decide +kernel

/-- Lane l of the input tile at point t is lane 128·t + l of the reshaped input. -/
theorem iblk0_0_apply (c : Dev nD) (t : Fin cfg0.N) (b : Fin 32) (ch : Fin 512) (l : Fin 128) (s : Fin 1024) (hs : s.val = 128 * t.val + l.val) :
    (iblk0 V c 0 t : Vec Ideal S32x512x128 .f32) (ix3 b ch l) = (V c main_v0 : S32x512x1024.Idx → EReal) (ix3 b ch s) := by
  obtain ⟨h0, h1, h2⟩ := idx0_0 t
  unfold iblk0
  rw [View.read_apply]
  show V c main_v0 _ = V c main_v0 _
  congr 1
  funext a
  apply Fin.ext
  match a with
  | ⟨0, _⟩ => show win0_0.index t 0 * 32 + 1 * b.val = b.val; rw [h0]; omega
  | ⟨1, _⟩ => show win0_0.index t 1 * 512 + 1 * ch.val = ch.val; rw [h1]; omega
  | ⟨2, _⟩ => show win0_0.index t 2 * 128 + 1 * l.val = s.val; rw [h2, hs]; omega

theorem idx0_1 : ∀ t : Fin grid0.N, ∀ a, win0_1.index t a = 0 := by decide +kernel
theorem iblk0_1_eq (c : Dev nD) (t : Fin cfg0.N) : (iblk0 V c 1 t : Vec Ideal S512x512 .f32) = (V c main_v1 : S512x512.Idx → EReal) := by
  funext y
  unfold iblk0
  rw [View.read_apply]
  show V c main_v1 _ = V c main_v1 y
  congr 1
  funext a
  apply Fin.ext
  have h := idx0_1 t
  match a with
  | ⟨0, _⟩ => show win0_1.index t 0 * 512 + 1 * (y 0).val = (y 0).val; rw [h 0]; omega
  | ⟨1, _⟩ => show win0_1.index t 1 * 512 + 1 * (y 1).val = (y 1).val; rw [h 1]; omega
theorem idx0_2 : ∀ t : Fin grid0.N, ∀ a, win0_2.index t a = 0 := by decide +kernel
theorem iblk0_2_eq (c : Dev nD) (t : Fin cfg0.N) : (iblk0 V c 2 t : Vec Ideal S1x512 .f32) = (V c main_arg2 : S1x512.Idx → EReal) := by
  funext y
  unfold iblk0
  rw [View.read_apply]
  show V c main_arg2 _ = V c main_arg2 y
  congr 1
  funext a
  apply Fin.ext
  have h := idx0_2 t
  match a with
  | ⟨0, _⟩ => show win0_2.index t 0 * 1 + 1 * (y 0).val = (y 0).val; rw [h 0]; omega
  | ⟨1, _⟩ => show win0_2.index t 1 * 512 + 1 * (y 1).val = (y 1).val; rw [h 1]; omega
theorem idx0_3 : ∀ t : Fin grid0.N, ∀ a, win0_3.index t a = 0 := by decide +kernel
theorem iblk0_3_eq (c : Dev nD) (t : Fin cfg0.N) : (iblk0 V c 3 t : Vec Ideal S1x512 .f32) = (V c main_arg3 : S1x512.Idx → EReal) := by
  funext y
  unfold iblk0
  rw [View.read_apply]
  show V c main_arg3 _ = V c main_arg3 y
  congr 1
  funext a
  apply Fin.ext
  have h := idx0_3 t
  match a with
  | ⟨0, _⟩ => show win0_3.index t 0 * 1 + 1 * (y 0).val = (y 0).val; rw [h 0]; omega
  | ⟨1, _⟩ => show win0_3.index t 1 * 512 + 1 * (y 1).val = (y 1).val; rw [h 1]; omega
theorem idx0_4 : ∀ t : Fin grid0.N, ∀ a, win0_4.index t a = 0 := by decide +kernel
theorem iblk0_4_eq (c : Dev nD) (t : Fin cfg0.N) : (iblk0 V c 4 t : Vec Ideal S512x512 .f32) = (V c main_v2 : S512x512.Idx → EReal) := by
  funext y
  unfold iblk0
  rw [View.read_apply]
  show V c main_v2 _ = V c main_v2 y
  congr 1
  funext a
  apply Fin.ext
  have h := idx0_4 t
  match a with
  | ⟨0, _⟩ => show win0_4.index t 0 * 512 + 1 * (y 0).val = (y 0).val; rw [h 0]; omega
  | ⟨1, _⟩ => show win0_4.index t 1 * 512 + 1 * (y 1).val = (y 1).val; rw [h 1]; omega
theorem idx0_5 : ∀ t : Fin grid0.N, ∀ a, win0_5.index t a = 0 := by decide +kernel
theorem iblk0_5_eq (c : Dev nD) (t : Fin cfg0.N) : (iblk0 V c 5 t : Vec Ideal S1x512 .f32) = (V c main_arg5 : S1x512.Idx → EReal) := by
  funext y
  unfold iblk0
  rw [View.read_apply]
  show V c main_arg5 _ = V c main_arg5 y
  congr 1
  funext a
  apply Fin.ext
  have h := idx0_5 t
  match a with
  | ⟨0, _⟩ => show win0_5.index t 0 * 1 + 1 * (y 0).val = (y 0).val; rw [h 0]; omega
  | ⟨1, _⟩ => show win0_5.index t 1 * 512 + 1 * (y 1).val = (y 1).val; rw [h 1]; omega
theorem idx0_6 : ∀ t : Fin grid0.N, ∀ a, win0_6.index t a = 0 := by decide +kernel
theorem iblk0_6_eq (c : Dev nD) (t : Fin cfg0.N) : (iblk0 V c 6 t : Vec Ideal S1x512 .f32) = (V c main_arg6 : S1x512.Idx → EReal) := by
  funext y
  unfold iblk0
  rw [View.read_apply]
  show V c main_arg6 _ = V c main_arg6 y
  congr 1
  funext a
  apply Fin.ext
  have h := idx0_6 t
  match a with
  | ⟨0, _⟩ => show win0_6.index t 0 * 1 + 1 * (y 0).val = (y 0).val; rw [h 0]; omega
  | ⟨1, _⟩ => show win0_6.index t 1 * 512 + 1 * (y 1).val = (y 1).val; rw [h 1]; omega
theorem idx0_7 : ∀ t : Fin grid0.N, ∀ a, win0_7.index t a = 0 := by decide +kernel
theorem iblk0_7_eq (c : Dev nD) (t : Fin cfg0.N) : (iblk0 V c 7 t : Vec Ideal S512x512 .f32) = (V c main_v3 : S512x512.Idx → EReal) := by
  funext y
  unfold iblk0
  rw [View.read_apply]
  show V c main_v3 _ = V c main_v3 y
  congr 1
  funext a
  apply Fin.ext
  have h := idx0_7 t
  match a with
  | ⟨0, _⟩ => show win0_7.index t 0 * 512 + 1 * (y 0).val = (y 0).val; rw [h 0]; omega
  | ⟨1, _⟩ => show win0_7.index t 1 * 512 + 1 * (y 1).val = (y 1).val; rw [h 1]; omega
theorem idx0_8 : ∀ t : Fin grid0.N, ∀ a, win0_8.index t a = 0 := by decide +kernel
theorem iblk0_8_eq (c : Dev nD) (t : Fin cfg0.N) : (iblk0 V c 8 t : Vec Ideal S1x512 .f32) = (V c main_arg8 : S1x512.Idx → EReal) := by
  funext y
  unfold iblk0
  rw [View.read_apply]
  show V c main_arg8 _ = V c main_arg8 y
  congr 1
  funext a
  apply Fin.ext
  have h := idx0_8 t
  match a with
  | ⟨0, _⟩ => show win0_8.index t 0 * 1 + 1 * (y 0).val = (y 0).val; rw [h 0]; omega
  | ⟨1, _⟩ => show win0_8.index t 1 * 512 + 1 * (y 1).val = (y 1).val; rw [h 1]; omega

/-! ## The accumulated total is the 1024-lane sum -/

/-- Tile k's lane sum at (b, c). -/
def tileSum (c : Dev nD) (b : Fin 32) (ch : Fin 512) (k : ℕ) : EReal :=
  if h : k < 8 then ∑ l : Fin 128, (V c main_v0 : S32x512x1024.Idx → EReal) (ix3 b ch ⟨128 * k + l.val, by omega⟩) else 0

/-- The accumulator after tile n at (b, c), as a function of every n. -/
def accAtIdx (c : Dev nD) (b : Fin 32) (ch : Fin 512) (n : ℕ) : EReal :=
  if h : n < cfg0.N then accV V c n h (ix2 b ch) else 0

theorem N0_eq : cfg0.N = 8 := N_0

theorem acc_step0 (c : Dev nD) (b : Fin 32) (ch : Fin 512) :
    accAtIdx V c b ch 0 = SE.zeroW + tileSum V c b ch 0 := by
  have h0 : 0 < cfg0.N := by rw [N0_eq]; decide
  unfold accAtIdx tileSum
  rw [dif_pos h0, dif_pos (by decide : (0 : ℕ) < 8)]
  show k0_pay2 (F := Ideal) (iblk0 V c 0 ⟨0, h0⟩) (k0_pay1 (F := Ideal)) (ix2 b ch) = _
  rw [RPay.pay2_apply, RPay.pay1_apply]
  refine congrArg (SE.zeroW + ·) (Finset.sum_congr rfl fun l _ => ?_)
  exact iblk0_0_apply V c ⟨0, h0⟩ b ch l _ (by show 128 * 0 + l.val = 128 * 0 + l.val; rfl)

theorem acc_step (c : Dev nD) (b : Fin 32) (ch : Fin 512) (k : ℕ) (hk : k < 7) :
    accAtIdx V c b ch (k + 1) = accAtIdx V c b ch k + tileSum V c b ch (k + 1) := by
  have h1 : k + 1 < cfg0.N := by rw [N0_eq]; omega
  have h0 : k < cfg0.N := by rw [N0_eq]; omega
  unfold accAtIdx tileSum
  rw [dif_pos h1, dif_pos h0, dif_pos (by omega : k + 1 < 8)]
  show k0_pay2 (F := Ideal) (iblk0 V c 0 ⟨k + 1, h1⟩) (accV V c k _) (ix2 b ch) = _
  rw [RPay.pay2_apply]
  refine congrArg (accV V c k _ (ix2 b ch) + ·) (Finset.sum_congr rfl fun l _ => ?_)
  exact iblk0_0_apply V c ⟨k + 1, h1⟩ b ch l _ rfl

/-- After the eight tiles the accumulator holds the sum over all 1024 lanes. -/
theorem acc_total (c : Dev nD) (b : Fin 32) (ch : Fin 512) :
    accV V c 7 t0_7.isLt (ix2 b ch) = SE.rowSum (V c main_v0) b ch := by
  have h := SE.Sums.running_total_zeroW (accAtIdx V c b ch) (tileSum V c b ch) 7 (acc_step0 V c b ch)
    (fun k hk => acc_step V c b ch k hk) 7 le_rfl
  have e : accAtIdx V c b ch 7 = accV V c 7 t0_7.isLt (ix2 b ch) := dif_pos (show (7 : ℕ) < cfg0.N from t0_7.isLt)
  rw [← e, h, Finset.sum_range (fun k => tileSum V c b ch k)]
  have hb := SE.Sums.sum_1024_blocks (M := EReal) (fun s : Fin 1024 => ((V c main_v0 : S32x512x1024.Idx → EReal) (ix3 b ch s) : EReal))
  unfold SE.rowSum
  refine Eq.trans ?_ hb.symm
  refine Finset.sum_congr rfl fun k _ => ?_
  unfold tileSum
  rw [dif_pos k.isLt]

/-! ## The gate array -/

/-- The gate [32, 512] from the arrays the region is entered with. -/
def gateArr (c : Dev nD) : S32x512.Idx → EReal := fun j =>
  SE.gate (V c main_v0) (V c main_v1) (V c main_arg2) (V c main_arg3) (V c main_v2) (V c main_arg5) (V c main_arg6)
    (V c main_v3) (V c main_arg8) (j 0) (j 1)

theorem out7_eq (c : Dev nD) : (outsAt0 V c t0_7.val t0_7.isLt).1 = gateArr V c := by
  funext j
  obtain ⟨b, ch, rfl⟩ : ∃ (b : Fin 32) (ch : Fin 512), j = ix2 b ch := ⟨j 0, j 1, eq_ix2 j⟩
  rw [out_at7, iblk0_1_eq, iblk0_2_eq, iblk0_3_eq, iblk0_4_eq, iblk0_5_eq, iblk0_6_eq, iblk0_7_eq, iblk0_8_eq, RPay.pay3_apply]
  show _ = SE.gateOf (SE.rowSum (V c main_v0) b) _ _ _ _ _ _ _ _ ch
  refine congrArg (fun s => SE.gateOf s (V c main_v1) (V c main_arg2) (V c main_arg3) (V c main_v2) (V c main_arg5) (V c main_arg6) (V c main_v3) (V c main_arg8) ch) ?_
  funext k
  exact acc_total V c b k

/-! ## The write-back and the final array -/

theorem idx0_9 : ∀ t : Fin grid0.N, ∀ a, win0_9.index t a = 0 := by decide +kernel

theorem flushed0_eq (c : Dev nD) (t : Fin cfg0.N) (hf : (cfg0.win 9).flush t = true) :
    (dat0 V c).flushed 9 t = ((cfg0.win 9).blk t).view.read (Elt Ideal) (gateArr V c) := by
  have hN : t.val < 8 := lt_of_lt_of_eq t.isLt N0_eq
  have h1 : t.val = 7 := by have := (flush0_9 t).mp hf; omega
  obtain rfl : t = t0_7 := Fin.ext h1
  show (cfg0.win 9).cut (grid0.coords t0_7) ((dat0 V c).after 9 t0_7) = _
  rw [after0_9, out7_eq]
  have hz' : (fun a => win0_9.index t0_7 a * main_v4.ty.shape.size a) = fun _ => 0 := funext fun a => by
    rw [idx0_9 t0_7 a]; exact Nat.zero_mul _
  exact (Memref.read_access_unit_zero (Elt Ideal) main_v4 hz' (fun a => by rw [congrFun hz' a]; simp) (gateArr V c)).symm

/-- The first region leaves the gate in its output array. -/
theorem final0 (c : Dev nD) : (dat0 V c).arrAt 9 cfg0.N = gateArr V c :=
  (dat0 V c).arrAt_eq_of_cover 9 (gateArr V c) (flushed0_eq V c) fun i =>
    ⟨t0_7, (flush0_9 t0_7).mpr rfl, by
      show i ∈ ((View.whole main_v4).slice (win0_9.rect t0_7)).set
      rw [View.set_slice_whole, Rect.mem_set_unit]
      intro a
      have h0 : (i 0 : Nat) < 32 := (i 0).isLt
      have h1 : (i 1 : Nat) < 512 := (i 1).isLt
      match a with
      | ⟨0, _⟩ => show win0_9.index t0_7 0 * win0_9.size 0 ≤ (i 0 : Nat) ∧ (i 0 : Nat) < win0_9.index t0_7 0 * win0_9.size 0 + win0_9.xsize (grid0.coords t0_7) 0
                  rw [show win0_9.index t0_7 0 * win0_9.size 0 = 0 from by decide +kernel, show win0_9.xsize (grid0.coords t0_7) 0 = 32 from by decide +kernel]; omega
      | ⟨1, _⟩ => show win0_9.index t0_7 1 * win0_9.size 1 ≤ (i 1 : Nat) ∧ (i 1 : Nat) < win0_9.index t0_7 1 * win0_9.size 1 + win0_9.xsize (grid0.coords t0_7) 1
                  rw [show win0_9.index t0_7 1 * win0_9.size 1 = 0 from by decide +kernel, show win0_9.xsize (grid0.coords t0_7) 1 = 512 from by decide +kernel]; omega⟩

end Cert.ReferenceIdeal.Hand

end
-- ==== Proof.R1Value.lean ====
/-
  The second region's result array: the reshaped input times the gate, index by index.

  The region walks eight lane tiles. At tile k it reads block (0, 0, k) of the input [32, 512, 1024] (lanes
  128 · k … 128 · k + 127), the whole gate [32, 512], and writes their product over block (0, 0, k) of the result.
  Here: where each window's block sits (the index maps, decided over the eight points), each input block read at an
  index as the array it is cut from, what a point writes back as its block of ONE function of the two arrays, the
  eight blocks cover the result, and so the result array is that function:
      result(b, c, s) = input(b, c, s) · gate(b, c).
-/
import proofs.«131134_g2000205275311698_pallasbulk_34_2_alg».proof.Proof.R1Frame
import proofs.«131134_g2000205275311698_pallasbulk_34_2_alg».proof.Proof.RefPayload
import Idealize.ShloMosaic.Lib.Pipeline.Value
import Idealize.ShloMosaic.Lib.ValueIdx

set_option maxRecDepth 16384

noncomputable section

namespace Cert.ReferenceIdeal.Hand

open Idealize.ShloMosaic Idealize.ShloMosaic.TcCoe Idealize.SL.Sem Idealize.ShloMosaic.ValueIdx
open Idealize.ShloMosaic.Pipeline (Dat)
open Cert.ReferenceIdeal Cert.ReferenceIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- There are eight points. -/
theorem point_lt (t : Fin cfg1.N) : t.val < 8 := lt_of_lt_of_eq t.isLt N_1

/-- An array [32, 512, 1024] times a gate [32, 512] spread along the lanes: x(b, c, s) · g(b, c). -/
def prodOf (x : S32x512x1024.Idx → EReal) (g : S32x512.Idx → EReal) : S32x512x1024.Idx → EReal :=
  fun i => x i * g (ix2 (i 0) (i 1))

theorem prodOf_apply (x : S32x512x1024.Idx → EReal) (g : S32x512.Idx → EReal) (b : Fin 32) (ch : Fin 512) (s : Fin 1024) :
    prodOf x g (ix3 b ch s) = x (ix3 b ch s) * g (ix2 b ch) := rfl

/-- The result as one function of the two arrays the region is entered with. -/
def prod1 (c : Dev nD) : S32x512x1024.Idx → EReal := prodOf (V c main_v6) (V c main_v7)

/-- Where the blocks sit: at point t the input's and the result's block index is (0, 0, t), the gate's (0, 0). -/
theorem idx_facts1 : ∀ t : Fin cfg1.N,
    win1_0.index t (0 : Fin 3) = 0 ∧ win1_0.index t (1 : Fin 3) = 0 ∧ win1_0.index t (2 : Fin 3) = t.val
    ∧ win1_1.index t (0 : Fin 2) = 0 ∧ win1_1.index t (1 : Fin 2) = 0
    ∧ win1_2.index t (0 : Fin 3) = 0 ∧ win1_2.index t (1 : Fin 3) = 0 ∧ win1_2.index t (2 : Fin 3) = t.val :=
  (by decide +kernel : ∀ t : Fin grid1.N, _)

/-- The input's block at point t, at (b, c, l), is the input at lane 128 · t + l. -/
theorem iblk1_0_apply (c : Dev nD) (t : Fin cfg1.N) (b : Fin 32) (ch : Fin 512) (l : Fin 128) (s : Fin 1024)
    (hs : s.val = 128 * t.val + l.val) :
    (iblk1 V c 0 t : S32x512x128.Idx → EReal) (ix3 b ch l) = (V c main_v6 : S32x512x1024.Idx → EReal) (ix3 b ch s) := by
  obtain ⟨e0, e1, e2, -⟩ := idx_facts1 t
  unfold iblk1
  rw [View.read_apply]
  show (V c main_v6 : S32x512x1024.Idx → EReal) _ = _
  congr 1
  funext a
  apply Fin.ext
  match a with
  | ⟨0, _⟩ => show win1_0.index t (0 : Fin 3) * 32 + 1 * b.val = b.val; rw [e0]; omega
  | ⟨1, _⟩ => show win1_0.index t (1 : Fin 3) * 512 + 1 * ch.val = ch.val; rw [e1]; omega
  | ⟨2, _⟩ => show win1_0.index t (2 : Fin 3) * 128 + 1 * l.val = s.val; rw [e2, hs]; omega

/-- The gate's block at any point, at (b, c), is the gate there. -/
theorem iblk1_1_apply (c : Dev nD) (t : Fin cfg1.N) (b : Fin 32) (ch : Fin 512) :
    (iblk1 V c 1 t : S32x512.Idx → EReal) (ix2 b ch) = (V c main_v7 : S32x512.Idx → EReal) (ix2 b ch) := by
  obtain ⟨-, -, -, e3, e4, -⟩ := idx_facts1 t
  unfold iblk1
  rw [View.read_apply]
  show (V c main_v7 : S32x512.Idx → EReal) _ = _
  congr 1
  funext a
  apply Fin.ext
  match a with
  | ⟨0, _⟩ => show win1_1.index t (0 : Fin 2) * 32 + 1 * b.val = b.val; rw [e3]; omega
  | ⟨1, _⟩ => show win1_1.index t (1 : Fin 2) * 512 + 1 * ch.val = ch.val; rw [e4]; omega

/-- What point t writes back is block t of the product. -/
theorem flushed1_2_eq (c : Dev nD) (t : Fin cfg1.N) :
    (dat1 V c).flushed 2 t = ((cfg1.win 2).blk t).view.read (Elt Ideal) (prod1 V c) := by
  show (cfg1.win 2).cut (grid1.coords t) ((dat1 V c).after 2 t) = _
  rw [after1_2]
  unfold out1_2
  rw [View.canon_unit_zero hz3]
  simp only [View.ld_unit_zero (S := S32x512x128) hz3, View.ld_unit_zero (S := S32x512) hz2]
  obtain ⟨-, -, -, -, -, e5, e6, e7⟩ := idx_facts1 t
  have ht := point_lt t
  refine funext fun (j : S32x512x128.Idx) => ?_
  obtain ⟨b, ch, l, rfl⟩ : ∃ (b : Fin 32) (ch : Fin 512) (l : Fin 128), j = ix3 b ch l := ⟨j 0, j 1, j 2, eq_ix3 j⟩
  have hemb : (((cfg1.win 2).blk t).view.emb (ix3 b ch l) : S32x512x1024.Idx)
      = ix3 b ch (⟨128 * t.val + l.val, by omega⟩ : Fin 1024) := by
    funext a
    apply Fin.ext
    match a with
    | ⟨0, _⟩ => show win1_2.index t (0 : Fin 3) * 32 + 1 * b.val = b.val; rw [e5]; omega
    | ⟨1, _⟩ => show win1_2.index t (1 : Fin 3) * 512 + 1 * ch.val = ch.val; rw [e6]; omega
    | ⟨2, _⟩ => show win1_2.index t (2 : Fin 3) * 128 + 1 * l.val = 128 * t.val + l.val; rw [e7]; omega
  show k1_pay1 (F := Ideal) (iblk1 V c 1 t) (iblk1 V c 0 t) (ix3 b ch l) = prod1 V c (((cfg1.win 2).blk t).view.emb (ix3 b ch l))
  rw [hemb]
  refine (RPay.pay_mul_apply _ _ b ch l).trans ?_
  exact congrArg₂ (· * ·) (iblk1_0_apply V c t b ch l _ rfl) (iblk1_1_apply V c t b ch)

/-- An index is in point t's block iff each coordinate is in the block's range on its axis. -/
theorem mem_blk1_2 (t : Fin cfg1.N) (i : S32x512x1024.Idx) :
    i ∈ ((cfg1.win 2).blk t).view.set ↔ ∀ a : Fin 3, win1_2.index t a * S32x512x128.size a ≤ (i a).val
      ∧ (i a).val < win1_2.index t a * S32x512x128.size a + S32x512x128.size a := by
  show i ∈ ((View.whole main_v8).slice (win1_2.rect t)).set ↔ _
  rw [View.set_slice_whole, Rect.mem_set_unit]
  exact Iff.rfl

/-- The eight blocks cover the result: lane s lies in the block of point s / 128. -/
theorem cover1_2_blocks (i : S32x512x1024.Idx) :
    ∃ t : Fin cfg1.N, (cfg1.win 2).flush t = true ∧ i ∈ ((cfg1.win 2).blk t).view.set := by
  have h0 : (i 0).val < 32 := (i 0).isLt
  have h1 : (i 1).val < 512 := (i 1).isLt
  have h2 : (i 2).val < 1024 := (i 2).isLt
  have hN : cfg1.N = 8 := N_1
  obtain ⟨t, ht⟩ : ∃ t : Fin cfg1.N, t.val = (i 2).val / 128 := ⟨⟨(i 2).val / 128, by rw [hN]; omega⟩, rfl⟩
  obtain ⟨-, -, -, -, -, e5, e6, e7⟩ := idx_facts1 t
  refine ⟨t, flush1_2 t, ?_⟩
  rw [mem_blk1_2]
  intro a
  match a with
  | ⟨0, _⟩ => show win1_2.index t (0 : Fin 3) * 32 ≤ (i 0).val ∧ (i 0).val < win1_2.index t (0 : Fin 3) * 32 + 32; rw [e5]; omega
  | ⟨1, _⟩ => show win1_2.index t (1 : Fin 3) * 512 ≤ (i 1).val ∧ (i 1).val < win1_2.index t (1 : Fin 3) * 512 + 512; rw [e6]; omega
  | ⟨2, _⟩ => show win1_2.index t (2 : Fin 3) * 128 ≤ (i 2).val ∧ (i 2).val < win1_2.index t (2 : Fin 3) * 128 + 128; rw [e7, ht]; omega

/-- The result array after the region: input(b, c, s) · gate(b, c) at every index. -/
theorem final1 (c : Dev nD) :
    (dat1 V c).arrAt 2 cfg1.N = prodOf (V c main_v6) (V c main_v7) :=
  (dat1 V c).arrAt_eq_of_cover 2 (prod1 V c) (fun t _ => flushed1_2_eq V c t) (cover1_2_blocks)

end Cert.ReferenceIdeal.Hand

end
-- ==== Proof.RefValue.lean ====
/-
  The reference's result as a function of its arguments. Reading the run's last boundary back through @main:
  the result is the reshape of the multiply's output array; that array is the reshaped input times the gate array
  spread along the lanes; the gate array reaches the multiply through two reshapes that undo each other; it is the
  first region's output array, the gate of the reshaped input and the transposed weights; and the reshaped input
  and the transposed weights are the first host stretch's. Composed, the result is the reshape to [32, 512, 32, 32]
  of the specification's block function of those arrays.
-/
import proofs.«131134_g2000205275311698_pallasbulk_34_2_alg».proof.Proof.RefRun
import proofs.«131134_g2000205275311698_pallasbulk_34_2_alg».proof.Proof.R0Final
import proofs.«131134_g2000205275311698_pallasbulk_34_2_alg».proof.Proof.R1Value
import proofs.«131134_g2000205275311698_pallasbulk_34_2_alg».proof.Proof.Spec
import Idealize.ShloMosaic.Lib.StableHlo.Run
import Idealize.ShloMosaic.Lib.Pipeline.Value

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

open Idealize.ShloMosaic.StableHlo
variable (m : (ℓ : Loc nD τ sig) → Buf (Elt Ideal) ℓ) (ρ : Dev nD → PrngReg)

/-- The result array as a function of the argument arrays. -/
def result (x : FVec Ideal S32x512x32x32 .f32) (w1 : FVec Ideal S512x512 .f32) (b1 a1 : FVec Ideal S1x512 .f32)
    (w2 : FVec Ideal S512x512 .f32) (b2 a2 : FVec Ideal S1x512 .f32) (w3 : FVec Ideal S512x512 .f32) (b3 : FVec Ideal S1x512 .f32) :
    FVec Ideal S32x512x32x32 .f32 :=
  shapeCast S32x512x32x32
    (SE.out3 (shapeCast S32x512x1024 x shapeCasts_S32x512x32x32_S32x512x1024)
      (transpose S512x512 [1, 0] w1 transposes_S512x512_S512x512_1_0) b1 a1
      (transpose S512x512 [1, 0] w2 transposes_S512x512_S512x512_1_0) b2 a2
      (transpose S512x512 [1, 0] w3 transposes_S512x512_S512x512_1_0) b3)
    shapeCasts_S32x512x1024_S32x512x32x32

/-! ## What the first host stretch leaves -/

theorem V1_v0 (c : Dev nD) :
    (V1 m ρ c main_v0 : S32x512x1024.Idx → EReal)
      = shapeCast S32x512x1024 (m ((c.tc : Thread nD τ).loc main_arg0)) shapeCasts_S32x512x32x32_S32x512x1024 := by
  show StableHlo.after hostOps0 (W0 m ρ c) (Proc.devRef .tc main_v0) = _
  after_results <;> rfl
theorem V1_v1 (c : Dev nD) :
    (V1 m ρ c main_v1 : S512x512.Idx → EReal)
      = transpose S512x512 [1, 0] (m ((c.tc : Thread nD τ).loc main_arg1)) transposes_S512x512_S512x512_1_0 := by
  show StableHlo.after hostOps0 (W0 m ρ c) (Proc.devRef .tc main_v1) = _
  after_results <;> rfl
theorem V1_v2 (c : Dev nD) :
    (V1 m ρ c main_v2 : S512x512.Idx → EReal)
      = transpose S512x512 [1, 0] (m ((c.tc : Thread nD τ).loc main_arg4)) transposes_S512x512_S512x512_1_0 := by
  show StableHlo.after hostOps0 (W0 m ρ c) (Proc.devRef .tc main_v2) = _
  after_results <;> rfl
theorem V1_v3 (c : Dev nD) :
    (V1 m ρ c main_v3 : S512x512.Idx → EReal)
      = transpose S512x512 [1, 0] (m ((c.tc : Thread nD τ).loc main_arg7)) transposes_S512x512_S512x512_1_0 := by
  show StableHlo.after hostOps0 (W0 m ρ c) (Proc.devRef .tc main_v3) = _
  after_results <;> rfl
theorem V1_arg2 (c : Dev nD) : V1 m ρ c main_arg2 = m ((c.tc : Thread nD τ).loc main_arg2) :=
  StableHlo.after_of_writes_sub hostOps0 _ hostOps0_writes (r := main_arg2) (by decide)
theorem V1_arg3 (c : Dev nD) : V1 m ρ c main_arg3 = m ((c.tc : Thread nD τ).loc main_arg3) :=
  StableHlo.after_of_writes_sub hostOps0 _ hostOps0_writes (r := main_arg3) (by decide)
theorem V1_arg5 (c : Dev nD) : V1 m ρ c main_arg5 = m ((c.tc : Thread nD τ).loc main_arg5) :=
  StableHlo.after_of_writes_sub hostOps0 _ hostOps0_writes (r := main_arg5) (by decide)
theorem V1_arg6 (c : Dev nD) : V1 m ρ c main_arg6 = m ((c.tc : Thread nD τ).loc main_arg6) :=
  StableHlo.after_of_writes_sub hostOps0 _ hostOps0_writes (r := main_arg6) (by decide)
theorem V1_arg8 (c : Dev nD) : V1 m ρ c main_arg8 = m ((c.tc : Thread nD τ).loc main_arg8) :=
  StableHlo.after_of_writes_sub hostOps0 _ hostOps0_writes (r := main_arg8) (by decide)

/-- The gate array, from the arguments. -/
theorem gate_eq (c : Dev nD) (b : Fin 32) (ch : Fin 512) :
    gateArr (V1 m ρ) c (ix2 b ch)
      = SE.gate (shapeCast S32x512x1024 (m ((c.tc : Thread nD τ).loc main_arg0)) shapeCasts_S32x512x32x32_S32x512x1024)
          (transpose S512x512 [1, 0] (m ((c.tc : Thread nD τ).loc main_arg1)) transposes_S512x512_S512x512_1_0) (m ((c.tc : Thread nD τ).loc main_arg2)) (m ((c.tc : Thread nD τ).loc main_arg3))
          (transpose S512x512 [1, 0] (m ((c.tc : Thread nD τ).loc main_arg4)) transposes_S512x512_S512x512_1_0) (m ((c.tc : Thread nD τ).loc main_arg5)) (m ((c.tc : Thread nD τ).loc main_arg6))
          (transpose S512x512 [1, 0] (m ((c.tc : Thread nD τ).loc main_arg7)) transposes_S512x512_S512x512_1_0) (m ((c.tc : Thread nD τ).loc main_arg8)) b ch := by
  unfold gateArr
  rw [V1_v0, V1_v1, V1_v2, V1_v3, V1_arg2, V1_arg3, V1_arg5, V1_arg6, V1_arg8]

/-! ## What the second host stretch leaves -/

theorem W2_arg0 (c : Dev nD) : W2 m ρ c (Proc.devRef .tc main_arg0) = m ((c.tc : Thread nD τ).loc main_arg0) :=
  (W2_of_ne m ρ c main_arg0 (by decide)).trans
    (StableHlo.after_of_writes_sub hostOps0 _ hostOps0_writes (r := main_arg0) (by decide))

theorem V3_v6 (c : Dev nD) :
    (V3 m ρ c main_v6 : S32x512x1024.Idx → EReal)
      = shapeCast S32x512x1024 (m ((c.tc : Thread nD τ).loc main_arg0)) shapeCasts_S32x512x32x32_S32x512x1024 := by
  have e : (V3 m ρ c main_v6 : S32x512x1024.Idx → EReal)
      = shapeCast S32x512x1024 (W2 m ρ c (Proc.devRef .tc main_arg0)) shapeCasts_S32x512x32x32_S32x512x1024 := by
    show StableHlo.after hostOps1 (W2 m ρ c) (Proc.devRef .tc main_v6) = _
    after_results <;> rfl
  rw [e, W2_arg0]

/-- The gate reaches the multiply through two reshapes that undo each other. -/
theorem V3_v7 (c : Dev nD) : (V3 m ρ c main_v7 : S32x512.Idx → EReal) = gateArr (V1 m ρ) c := by
  have e : (V3 m ρ c main_v7 : S32x512.Idx → EReal)
      = shapeCast S32x512 (shapeCast S32x512x1x1 (W2 m ρ c (Proc.devRef .tc main_v4)) shapeCasts_S32x512_S32x512x1x1) shapeCasts_S32x512x1x1_S32x512 := by
    show StableHlo.after hostOps1 (W2 m ρ c) (Proc.devRef .tc main_v7) = _
    after_results <;> rfl
  rw [e, shapeCast_shapeCast]
  exact (W2_arr m ρ c 9).trans (final0 (V1 m ρ) c)

/-! ## The result -/

theorem W5_v9 (c : Dev nD) :
    (W5 m ρ c (Proc.devRef .tc main_v9) : S32x512x32x32.Idx → EReal)
      = shapeCast S32x512x32x32 (W4 m ρ c (Proc.devRef .tc main_v8)) shapeCasts_S32x512x1024_S32x512x32x32 := by
  show StableHlo.after hostOps2 (W4 m ρ c) (Proc.devRef .tc main_v9) = _
  after_results <;> rfl

theorem W4_v8 (c : Dev nD) :
    (W4 m ρ c (Proc.devRef .tc main_v8) : S32x512x1024.Idx → EReal)
      = SE.out3 (shapeCast S32x512x1024 (m ((c.tc : Thread nD τ).loc main_arg0)) shapeCasts_S32x512x32x32_S32x512x1024)
          (transpose S512x512 [1, 0] (m ((c.tc : Thread nD τ).loc main_arg1)) transposes_S512x512_S512x512_1_0) (m ((c.tc : Thread nD τ).loc main_arg2)) (m ((c.tc : Thread nD τ).loc main_arg3))
          (transpose S512x512 [1, 0] (m ((c.tc : Thread nD τ).loc main_arg4)) transposes_S512x512_S512x512_1_0) (m ((c.tc : Thread nD τ).loc main_arg5)) (m ((c.tc : Thread nD τ).loc main_arg6))
          (transpose S512x512 [1, 0] (m ((c.tc : Thread nD τ).loc main_arg7)) transposes_S512x512_S512x512_1_0) (m ((c.tc : Thread nD τ).loc main_arg8)) := by
  have e : W4 m ρ c (Proc.devRef .tc main_v8) = (dat1 (V3 m ρ) c).arrAt 2 cfg1.N := W4_arr m ρ c 2
  rw [e, final1, V3_v6, V3_v7]
  funext i
  obtain ⟨b, ch, s, rfl⟩ : ∃ (b : Fin 32) (ch : Fin 512) (s : Fin 1024), i = ix3 b ch s := ⟨i 0, i 1, i 2, eq_ix3 i⟩
  rw [prodOf_apply, SE.out3_apply, gate_eq]

theorem W5_result (c : Dev nD) :
    W5 m ρ c (Proc.devRef .tc main_v9)
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [W5_v9, W4_v8]
  rfl

/-- Every weakly fair execution of the reference terminates, nothing faulting, with the result array at the
    reshape of the block function of the reshaped input and the transposed weights, and the arguments unchanged. -/
theorem run : θ_run (defs (F := Ideal)) (onTc (τ := τ) (main (F := Ideal))) ⟨m, fun _ => 0, ρ⟩ (fun r => ∀ c : Dev nD,
      r.2.mem ((c.tc : Thread nD τ).loc main_v9) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v9 (by decide))).trans (W5_result m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c)⟩) (run_all m ρ)

end Cert.ReferenceIdeal.Hand

end
-- ==== Proof.lean ====
/-
  A fused squeeze-and-excitation block against its two-call form, over the extended reals.

  Both programs take x : [32, 512, 32, 32], three [512, 512] weights with [1, 512] biases and two [1, 512] rectifier
  slopes, and return x(b, c, ·, ·) · gate(b, c), where, on the input reshaped to [32, 512, 1024],
      gate(b, ·) = σ( L₃( φ₂( L₂( φ₁( L₁( g_b ) ) ) ) ) ),      g_b(k) = (∑_{l < 1024} x(b, k, l)) · 2⁻¹⁰,
  L a dense layer over the transposed weight plus its bias, φ the parametric rectifier, σ the logistic function.

  The kernel does this in one pallas_call: eight batch tiles of four items, each tile resident, one 1024-lane sum
  per row, the three layers, the gate applied to the tile. The reference does it in two: its first pallas_call
  walks eight 128-lane tiles of the whole batch, resets a [32, 512] accumulator at tile 0, adds each tile's lane sums
  into it, and at tile 7 computes and stores the gate; its second multiplies, tile by tile. Read at the ideal
  values the two differ only in how the 1024-lane sum is grouped — ((((0 + s₀) + s₁) + …) + s₇ with s_k the sum over
  tile k's 128 lanes, against one sum over 1024 — and addition of extended reals is commutative and associative, so
  the results are equal with no appeal to the inputs' finiteness.

  The kernel's side (its result array as the reshape of the block function of the reshaped input and the transposed
  weights) is Proof/KernelRun.lean over Proof/KernelBlocks.lean and Proof/KernelPayload.lean; the reference's side
  is Proof/RefValue.lean, over its run through both regions (Proof/RefRun.lean; the first region's three control
  cases in Proof/R0RunA.lean, R0RunB.lean, R0RunC.lean and its accumulator tracked between points in
  Proof/R0Frame.lean; the second region in Proof/R1Frame.lean) and the values the regions leave (Proof/R0Value.lean,
  R0Final.lean, R1Value.lean). The block function is Proof/Spec.lean; the dense layers read row by row are
  Proof/LibGateRows.lean, the regrouping of the sum Proof/LibSumBlocks.lean. No rewrite was applied by the ideal
  pass, so the idealized kernel is the kernel's own text read at the ideal values.
-/
import proofs.«131134_g2000205275311698_pallasbulk_34_2_alg».proof.Defs
import proofs.«131134_g2000205275311698_pallasbulk_34_2_alg».proof.Proof.Gen.Kernel
import proofs.«131134_g2000205275311698_pallasbulk_34_2_alg».proof.Proof.Gen.Kernel.Frame
import proofs.«131134_g2000205275311698_pallasbulk_34_2_alg».proof.Proof.Gen.KernelIdeal
import proofs.«131134_g2000205275311698_pallasbulk_34_2_alg».proof.Proof.Gen.KernelIdeal.Frame
import proofs.«131134_g2000205275311698_pallasbulk_34_2_alg».proof.Proof.Gen.ReferenceIdeal
import proofs.«131134_g2000205275311698_pallasbulk_34_2_alg».proof.Proof.Gen.Pre_finite_inputs
import proofs.«131134_g2000205275311698_pallasbulk_34_2_alg».proof.Proof.KernelRun
import proofs.«131134_g2000205275311698_pallasbulk_34_2_alg».proof.Proof.RefValue

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments unchanged: its run through both regions, the result dropped. -/
theorem frame_ri : Cert.frame_ReferenceIdeal := fun m ρ _ =>
  (θ_run Cert.ReferenceIdeal.defs _ _).mono (fun _ h c => (h c).2) (Cert.ReferenceIdeal.Hand.run m ρ)

/-- The ideal pass rewrote nothing. -/
theorem preserves : Cert.preserves_Kernel_KernelIdeal := trivial

/-- From memories agreeing on the arguments both programs end with the reshape of one block function of the
    reshaped input and the transposed weights. -/
theorem algebraic : Cert.algebraic_KernelIdeal_ReferenceIdeal := by
  intro m ρ m' ρ' _ hagree
  refine ⟨fun c => Cert.KernelIdeal.KSide.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KSide.run m ρ, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5, e6, e7, e8⟩ := hagree c
  rw [e0, e1, e2, e3, e4, e5, e6, e7, e8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
